-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x256 .f32) (main_arg8 : FVec F S128x256 .f32) (main_arg9 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x256 .f32) (main_arg5 : FVec F S256x256 .f32) (main_arg6 : FVec F S256 .f32) (main_arg7 : FVec F S128x256 .f32) (main_arg8 : FVec F S128x256 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S256x256 .f32) (main_arg2 : FVec F S256x256 .f32) (main_arg3 : FVec F S256 .f32) (main_arg4 : FVec F S256x256 .f32) (main_arg5 : FVec F S256x256 .f32) (main_arg6 : FVec F S256 .f32) (main_arg7 : FVec F S128x256 .f32) (main_arg8 : FVec F S128x256 .f32) (main_arg9 : FVec F S128 .f32) (main_arg10 : IVec S800000 32) (main_arg11 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S5000x256 : Shape := ⟨2, ![5000, 256]⟩
abbrev S256x128 : Shape := ⟨2, ![256, 128]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 83
  | .vmem => 31
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128x256, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S256x256, .f32⟩
  | .hbm, ⟨41, _⟩ => ⟨S256x256, .f32⟩
  | .hbm, ⟨42, _⟩ => ⟨S1x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S256x256, .f32⟩
  | .hbm, ⟨60, _⟩ => ⟨S256x256, .f32⟩
  | .hbm, ⟨61, _⟩ => ⟨S1x256, .f32⟩
  | .hbm, ⟨62, _⟩ => ⟨S50000x256, .f32⟩
  | .hbm, ⟨63, _⟩ => ⟨S256x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S256x128, .f32⟩
  | .hbm, ⟨81, _⟩ => ⟨S1x128, .f32⟩
  | .hbm, ⟨82, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x128, .f32⟩
  | .local _ .vmem, ⟨21, _⟩ => ⟨S5000x128, .f32⟩
  | .local _ .vmem, ⟨22, _⟩ => ⟨S5000x128, .f32⟩
  | .local _ .vmem, ⟨23, _⟩ => ⟨S5000x256, .f32⟩
  | .local _ .vmem, ⟨24, _⟩ => ⟨S5000x256, .f32⟩
  | .local _ .vmem, ⟨25, _⟩ => ⟨S5000x128, .f32⟩
  | .local _ .vmem, ⟨26, _⟩ => ⟨S5000x128, .f32⟩
  | .local _ .vmem, ⟨27, _⟩ => ⟨S256x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  transposes_S128x256_S256x128_1_0 : S128x256.Transposes [1, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S256x128 : Shape := ⟨2, ![256, 128]⟩
abbrev S50000x128 : Shape := ⟨2, ![50000, 128]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S128x256, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x256, .f32⟩
  | .hbm, ⟨21, _⟩ => ⟨S_, .f32⟩
  | .hbm, ⟨22, _⟩ => ⟨S50000x256, .f32⟩
  | .hbm, ⟨23, _⟩ => ⟨S800000x1, .i32⟩
  | .hbm, ⟨24, _⟩ => ⟨S50000x256, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S256x256, .f32⟩
  | .hbm, ⟨38, _⟩ => ⟨S50000x256, .f32⟩
  | .hbm, ⟨39, _⟩ => ⟨S256x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x256, .f32⟩
  | .hbm, ⟨74, _⟩ => ⟨S50000x256, .f32⟩
  | .hbm, ⟨75, _⟩ => ⟨S256x256, .f32⟩
  | .hbm, ⟨76, _⟩ => ⟨S50000x256, .f32⟩
  | .hbm, ⟨77, _⟩ => ⟨S50000x256, .f32⟩
  | .hbm, ⟨78, _⟩ => ⟨S1x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x256, .f32⟩
  | .hbm, ⟨93, _⟩ => ⟨S_, .f32⟩
  | .hbm, ⟨94, _⟩ => ⟨S50000x256, .f32⟩
  | .hbm, ⟨95, _⟩ => ⟨S800000x1, .i32⟩
  | .hbm, ⟨96, _⟩ => ⟨S50000x256, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x256, .f32⟩
  | .hbm, ⟨108, _⟩ => ⟨S50000x256, .f32⟩
  | .hbm, ⟨109, _⟩ => ⟨S256x128, .f32⟩
  | .hbm, ⟨110, _⟩ => ⟨S50000x128, .f32⟩
  | .hbm, ⟨111, _⟩ => ⟨S256x128, .f32⟩
  | .hbm, ⟨112, _⟩ => ⟨S50000x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KerRun.lean ====
/-
  The idealized kernel's run, with its result kept.

  Every weakly fair execution of the program from a memory with zero counters terminates without a fault; in the final
  state the result array holds what the last of the four pipelined regions leaves in it — the contents `W8` that the
  run folds from the launch memory through the four stretches of host operations and the four regions — and the twelve
  argument arrays are as launched. The chain of segments, the thread state carried between them and the read of the final
  state are those of the frame claim; only the last step differs: besides the arguments it also reads the result array
  out of "every unscoped buffer holds its `W8` contents".
-/
import proofs.«153461_j996432413260_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, the result array ends at the last boundary's contents, the arguments end as launched. -/
theorem run : θ_run defs (onTc (τ := τ) (main (F := F))) ⟨m, fun _ => 0, ρ⟩ (fun r => ∀ c : Dev nD,
      r.2.mem ((c.tc : Thread nD τ).loc main_v57) = W8 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v57 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.RunValue

end
-- ==== Proof.KerTerms.lean ====
/-
  The host side of the idealized kernel, named.

  Between its four pipelined regions the program runs plain array operations. This module names the few composite
  terms they build, as functions of the arrays they read, at the ideal values:

    gidx src      the edge sources as a column of row numbers, a negative number wrapped once by the node count
    sidx dst      the edge destinations as a column of row numbers
    degClamp dst  the in-degree of every node (ones scatter-added at the destinations), clamped below by one
    invCol dst    the reciprocal of that, as a column
    mean256 h / mean128 h   gather the source rows of h, scatter-add them at the destinations, scale each row by the
                  reciprocal of its node's clamped degree (256 and 128 columns)
    trW / trW2    a weight matrix transposed;  rowB / rowB2   a bias vector as a one-row matrix
-/
import proofs.«153461_j996432413260_2_alg».proof.Proof.Gen.KernelIdeal.Frame
import Idealize.ShloMosaic.Lib.StableHlo.Run
import Idealize.ShloMosaic.PureOps.Ideal

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo

/-- The edge sources as row numbers: a negative one is wrapped by adding the node count. -/
def gidx (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge destinations as a column of row numbers. -/
def sidx (dst : (⟨S800000, .i32⟩ : BufTy).Contents (Elt Ideal)) : (⟨S800000x1, .i32⟩ : BufTy).Contents (Elt Ideal) :=
  broadcastInDim S800000x1 ![0] bcast_S800000_S800000x1_0 dst

/-- Every node's in-degree, clamped below by one. -/
def degClamp (dst : (⟨S800000, .i32⟩ : BufTy).Contents (Elt Ideal)) : (⟨S50000, .f32⟩ : BufTy).Contents (Elt Ideal) :=
  maximumf
    (Host.scatterAdd scatter_S50000_S800000x1_S800000_n_0_0_1
      (broadcastInDim S50000 ![] bcast_S_S50000 (constant (F := Ideal) S_ .f32 0x00000000#32))
      (sidx dst)
      (broadcastInDim S800000 ![] bcast_S_S800000 (constant (F := Ideal) S_ .f32 0x3F800000#32)))
    (broadcastInDim S50000 ![] bcast_S_S50000 (constant (F := Ideal) S_ .f32 0x3F800000#32))

/-- The clamped degree's reciprocal, as a column. -/
def invCol (dst : (⟨S800000, .i32⟩ : BufTy).Contents (Elt Ideal)) : (⟨S50000x1, .f32⟩ : BufTy).Contents (Elt Ideal) :=
  broadcastInDim S50000x1 ![0] bcast_S50000_S50000x1_0
    (Host.divf (broadcastInDim S50000 ![] bcast_S_S50000 (constant (F := Ideal) S_ .f32 0x3F800000#32)) (degClamp dst))

/-- The neighbours' mean of 256-column features: gather, scatter-add, scale the rows. -/
def mean256 (h : (⟨S50000x256, .f32⟩ : BufTy).Contents (Elt Ideal)) (src dst : (⟨S800000, .i32⟩ : BufTy).Contents (Elt Ideal)) : (⟨S50000x256, .f32⟩ : BufTy).Contents (Elt Ideal) :=
  mulf
    (Host.scatterAdd scatter_S50000x256_S800000x1_S800000x256_1_0_0_1
      (broadcastInDim S50000x256 ![] bcast_S_S50000x256 (constant (F := Ideal) S_ .f32 0x00000000#32))
      (sidx dst)
      (Host.gather gather_S50000x256_S800000x1_S800000x256_1_0_n_n_0_1_1256 h (gidx src)))
    (broadcastInDim S50000x256 ![0, 1] bcast_S50000x1_S50000x256_0_1 (invCol dst))

/-- The neighbours' mean of 128-column features. -/
def mean128 (h : (⟨S50000x128, .f32⟩ : BufTy).Contents (Elt Ideal)) (src dst : (⟨S800000, .i32⟩ : BufTy).Contents (Elt Ideal)) : (⟨S50000x128, .f32⟩ : BufTy).Contents (Elt Ideal) :=
  mulf
    (Host.scatterAdd scatter_S50000x128_S800000x1_S800000x128_1_0_0_1
      (broadcastInDim S50000x128 ![] bcast_S_S50000x128 (constant (F := Ideal) S_ .f32 0x00000000#32))
      (sidx dst)
      (Host.gather gather_S50000x128_S800000x1_S800000x128_1_0_n_n_0_1_1128 h (gidx src)))
    (broadcastInDim S50000x128 ![0, 1] bcast_S50000x1_S50000x128_0_1 (invCol dst))

/-- A 256×256 weight matrix transposed. -/
def trW (W : (⟨S256x256, .f32⟩ : BufTy).Contents (Elt Ideal)) : (⟨S256x256, .f32⟩ : BufTy).Contents (Elt Ideal) := transpose S256x256 [1, 0] W transposes_S256x256_S256x256_1_0
/-- A 128×256 weight matrix transposed. -/
def trW2 (W : (⟨S128x256, .f32⟩ : BufTy).Contents (Elt Ideal)) : (⟨S256x128, .f32⟩ : BufTy).Contents (Elt Ideal) := transpose S256x128 [1, 0] W transposes_S128x256_S256x128_1_0
/-- A 256-entry bias as a one-row matrix. -/
def rowB (b : (⟨S256, .f32⟩ : BufTy).Contents (Elt Ideal)) : (⟨S1x256, .f32⟩ : BufTy).Contents (Elt Ideal) := shapeCast S1x256 b shapeCasts_S256_S1x256
/-- A 128-entry bias as a one-row matrix. -/
def rowB2 (b : (⟨S128, .f32⟩ : BufTy).Contents (Elt Ideal)) : (⟨S1x128, .f32⟩ : BufTy).Contents (Elt Ideal) := shapeCast S1x128 b shapeCasts_S128_S1x128

variable (m : (ℓ : Loc nD τ sig) → Buf (Elt Ideal) ℓ)

/-- An array of the launch memory on core `c`. -/
abbrev launched (c : Dev nD) (b : Ref sig .tc) : Buf (Elt Ideal) ((c : Thread nD τ).loc b) := m ((c : Thread nD τ).loc b)

end Cert.KernelIdeal.Walk

end
-- ==== Proof.KerW1.lean ====
/-
  The kernel's buffers when its first region is entered.

  The first stretch of host operations computes, from the launch memory: the column of reciprocal clamped degrees, the
  neighbours' mean of the input features, the two first-layer weight matrices transposed and the first bias as a row.
  It writes no argument array.
-/
import proofs.«153461_j996432413260_2_alg».proof.Proof.KerTerms

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

set_option maxHeartbeats 4000000 in
theorem at1_v8 : W1 m ρ c (Proc.devRef .tc main_v8) = invCol (launched m c main_arg11) := by
  show StableHlo.after hostOps0 (W0 m ρ c) (Proc.devRef .tc main_v8) = _
  after_results
  rfl

set_option maxHeartbeats 4000000 in
theorem at1_v20 : W1 m ρ c (Proc.devRef .tc main_v20) = mean256 (launched m c main_arg0) (launched m c main_arg10) (launched m c main_arg11) := by
  show StableHlo.after hostOps0 (W0 m ρ c) (Proc.devRef .tc main_v20) = _
  after_results
  rfl

set_option maxHeartbeats 4000000 in
theorem at1_v21 : W1 m ρ c (Proc.devRef .tc main_v21) = trW (launched m c main_arg1) := by
  show StableHlo.after hostOps0 (W0 m ρ c) (Proc.devRef .tc main_v21) = _
  after_results
  rfl

set_option maxHeartbeats 4000000 in
theorem at1_v22 : W1 m ρ c (Proc.devRef .tc main_v22) = trW (launched m c main_arg2) := by
  show StableHlo.after hostOps0 (W0 m ρ c) (Proc.devRef .tc main_v22) = _
  after_results
  rfl

set_option maxHeartbeats 4000000 in
theorem at1_v23 : W1 m ρ c (Proc.devRef .tc main_v23) = rowB (launched m c main_arg3) := by
  show StableHlo.after hostOps0 (W0 m ρ c) (Proc.devRef .tc main_v23) = _
  after_results
  rfl

theorem at1_arg0 : W1 m ρ c (Proc.devRef .tc main_arg0) = launched m c main_arg0 := by
  show StableHlo.after hostOps0 (W0 m ρ c) (Proc.devRef .tc main_arg0) = _
  after_results

theorem at1_arg4 : W1 m ρ c (Proc.devRef .tc main_arg4) = launched m c main_arg4 := by
  show StableHlo.after hostOps0 (W0 m ρ c) (Proc.devRef .tc main_arg4) = _
  after_results

theorem at1_arg5 : W1 m ρ c (Proc.devRef .tc main_arg5) = launched m c main_arg5 := by
  show StableHlo.after hostOps0 (W0 m ρ c) (Proc.devRef .tc main_arg5) = _
  after_results

theorem at1_arg6 : W1 m ρ c (Proc.devRef .tc main_arg6) = launched m c main_arg6 := by
  show StableHlo.after hostOps0 (W0 m ρ c) (Proc.devRef .tc main_arg6) = _
  after_results

theorem at1_arg7 : W1 m ρ c (Proc.devRef .tc main_arg7) = launched m c main_arg7 := by
  show StableHlo.after hostOps0 (W0 m ρ c) (Proc.devRef .tc main_arg7) = _
  after_results

theorem at1_arg8 : W1 m ρ c (Proc.devRef .tc main_arg8) = launched m c main_arg8 := by
  show StableHlo.after hostOps0 (W0 m ρ c) (Proc.devRef .tc main_arg8) = _
  after_results

theorem at1_arg9 : W1 m ρ c (Proc.devRef .tc main_arg9) = launched m c main_arg9 := by
  show StableHlo.after hostOps0 (W0 m ρ c) (Proc.devRef .tc main_arg9) = _
  after_results

theorem at1_arg10 : W1 m ρ c (Proc.devRef .tc main_arg10) = launched m c main_arg10 := by
  show StableHlo.after hostOps0 (W0 m ρ c) (Proc.devRef .tc main_arg10) = _
  after_results

theorem at1_arg11 : W1 m ρ c (Proc.devRef .tc main_arg11) = launched m c main_arg11 := by
  show StableHlo.after hostOps0 (W0 m ρ c) (Proc.devRef .tc main_arg11) = _
  after_results

end Cert.KernelIdeal.Walk

end
-- ==== Proof.KerW3.lean ====
/-
  The kernel's buffers when its second region is entered.

  The first region rewrites only its own output array, so the reciprocal-degree column and the arguments pass through it.
  The second stretch of host operations takes the neighbours' mean of the first region's output and transposes the
  second layer's weights; the first region's output itself is kept.
-/
import proofs.«153461_j996432413260_2_alg».proof.Proof.KerW1

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

theorem at2_v8 : W2 m ρ c (Proc.devRef .tc main_v8) = invCol (launched m c main_arg11) :=
  (W2_of_ne m ρ c main_v8 (by decide)).trans (at1_v8 m ρ c)

theorem at2_arg4 : W2 m ρ c (Proc.devRef .tc main_arg4) = launched m c main_arg4 :=
  (W2_of_ne m ρ c main_arg4 (by decide)).trans (at1_arg4 m ρ c)

theorem at2_arg5 : W2 m ρ c (Proc.devRef .tc main_arg5) = launched m c main_arg5 :=
  (W2_of_ne m ρ c main_arg5 (by decide)).trans (at1_arg5 m ρ c)

theorem at2_arg6 : W2 m ρ c (Proc.devRef .tc main_arg6) = launched m c main_arg6 :=
  (W2_of_ne m ρ c main_arg6 (by decide)).trans (at1_arg6 m ρ c)

theorem at2_arg7 : W2 m ρ c (Proc.devRef .tc main_arg7) = launched m c main_arg7 :=
  (W2_of_ne m ρ c main_arg7 (by decide)).trans (at1_arg7 m ρ c)

theorem at2_arg8 : W2 m ρ c (Proc.devRef .tc main_arg8) = launched m c main_arg8 :=
  (W2_of_ne m ρ c main_arg8 (by decide)).trans (at1_arg8 m ρ c)

theorem at2_arg9 : W2 m ρ c (Proc.devRef .tc main_arg9) = launched m c main_arg9 :=
  (W2_of_ne m ρ c main_arg9 (by decide)).trans (at1_arg9 m ρ c)

theorem at2_arg10 : W2 m ρ c (Proc.devRef .tc main_arg10) = launched m c main_arg10 :=
  (W2_of_ne m ρ c main_arg10 (by decide)).trans (at1_arg10 m ρ c)

theorem at2_arg11 : W2 m ρ c (Proc.devRef .tc main_arg11) = launched m c main_arg11 :=
  (W2_of_ne m ρ c main_arg11 (by decide)).trans (at1_arg11 m ρ c)

theorem at3_v24 : W3 m ρ c (Proc.devRef .tc main_v24) = W2 m ρ c (Proc.devRef .tc main_v24) := by
  show StableHlo.after hostOps1 (W2 m ρ c) (Proc.devRef .tc main_v24) = _
  after_results

set_option maxHeartbeats 4000000 in
theorem at3_v36 : W3 m ρ c (Proc.devRef .tc main_v36) = mean256 (W2 m ρ c (Proc.devRef .tc main_v24)) (launched m c main_arg10) (launched m c main_arg11) := by
  show StableHlo.after hostOps1 (W2 m ρ c) (Proc.devRef .tc main_v36) = _
  after_results
  rw [at2_arg10 m ρ c, at2_arg11 m ρ c, at2_v8 m ρ c]
  rfl

set_option maxHeartbeats 4000000 in
theorem at3_v37 : W3 m ρ c (Proc.devRef .tc main_v37) = trW (launched m c main_arg4) := by
  show StableHlo.after hostOps1 (W2 m ρ c) (Proc.devRef .tc main_v37) = _
  after_results
  rw [at2_arg4 m ρ c]
  rfl

set_option maxHeartbeats 4000000 in
theorem at3_v38 : W3 m ρ c (Proc.devRef .tc main_v38) = trW (launched m c main_arg5) := by
  show StableHlo.after hostOps1 (W2 m ρ c) (Proc.devRef .tc main_v38) = _
  after_results
  rw [at2_arg5 m ρ c]
  rfl

set_option maxHeartbeats 4000000 in
theorem at3_v39 : W3 m ρ c (Proc.devRef .tc main_v39) = rowB (launched m c main_arg6) := by
  show StableHlo.after hostOps1 (W2 m ρ c) (Proc.devRef .tc main_v39) = _
  after_results
  rw [at2_arg6 m ρ c]
  rfl

theorem at3_v8 : W3 m ρ c (Proc.devRef .tc main_v8) = invCol (launched m c main_arg11) := by
  show StableHlo.after hostOps1 (W2 m ρ c) (Proc.devRef .tc main_v8) = _
  after_results
  exact at2_v8 m ρ c

theorem at3_arg7 : W3 m ρ c (Proc.devRef .tc main_arg7) = launched m c main_arg7 := by
  show StableHlo.after hostOps1 (W2 m ρ c) (Proc.devRef .tc main_arg7) = _
  after_results
  exact at2_arg7 m ρ c

theorem at3_arg8 : W3 m ρ c (Proc.devRef .tc main_arg8) = launched m c main_arg8 := by
  show StableHlo.after hostOps1 (W2 m ρ c) (Proc.devRef .tc main_arg8) = _
  after_results
  exact at2_arg8 m ρ c

theorem at3_arg9 : W3 m ρ c (Proc.devRef .tc main_arg9) = launched m c main_arg9 := by
  show StableHlo.after hostOps1 (W2 m ρ c) (Proc.devRef .tc main_arg9) = _
  after_results
  exact at2_arg9 m ρ c

theorem at3_arg10 : W3 m ρ c (Proc.devRef .tc main_arg10) = launched m c main_arg10 := by
  show StableHlo.after hostOps1 (W2 m ρ c) (Proc.devRef .tc main_arg10) = _
  after_results
  exact at2_arg10 m ρ c

theorem at3_arg11 : W3 m ρ c (Proc.devRef .tc main_arg11) = launched m c main_arg11 := by
  show StableHlo.after hostOps1 (W2 m ρ c) (Proc.devRef .tc main_arg11) = _
  after_results
  exact at2_arg11 m ρ c

end Cert.KernelIdeal.Walk

end
-- ==== Proof.KerW5.lean ====
/-
  The kernel's buffers when its third region is entered.

  The second region rewrites only its own output array. The one host operation before the third region transposes the
  last layer's neighbour weights.
-/
import proofs.«153461_j996432413260_2_alg».proof.Proof.KerW3

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

theorem at4_v8 : W4 m ρ c (Proc.devRef .tc main_v8) = invCol (launched m c main_arg11) :=
  (W4_of_ne m ρ c main_v8 (by decide)).trans (at3_v8 m ρ c)

theorem at4_arg7 : W4 m ρ c (Proc.devRef .tc main_arg7) = launched m c main_arg7 :=
  (W4_of_ne m ρ c main_arg7 (by decide)).trans (at3_arg7 m ρ c)

theorem at4_arg8 : W4 m ρ c (Proc.devRef .tc main_arg8) = launched m c main_arg8 :=
  (W4_of_ne m ρ c main_arg8 (by decide)).trans (at3_arg8 m ρ c)

theorem at4_arg9 : W4 m ρ c (Proc.devRef .tc main_arg9) = launched m c main_arg9 :=
  (W4_of_ne m ρ c main_arg9 (by decide)).trans (at3_arg9 m ρ c)

theorem at4_arg10 : W4 m ρ c (Proc.devRef .tc main_arg10) = launched m c main_arg10 :=
  (W4_of_ne m ρ c main_arg10 (by decide)).trans (at3_arg10 m ρ c)

theorem at4_arg11 : W4 m ρ c (Proc.devRef .tc main_arg11) = launched m c main_arg11 :=
  (W4_of_ne m ρ c main_arg11 (by decide)).trans (at3_arg11 m ρ c)

theorem at5_v40 : W5 m ρ c (Proc.devRef .tc main_v40) = W4 m ρ c (Proc.devRef .tc main_v40) := by
  show StableHlo.after hostOps2 (W4 m ρ c) (Proc.devRef .tc main_v40) = _
  after_results

set_option maxHeartbeats 4000000 in
theorem at5_v41 : W5 m ρ c (Proc.devRef .tc main_v41) = trW2 (launched m c main_arg8) := by
  show StableHlo.after hostOps2 (W4 m ρ c) (Proc.devRef .tc main_v41) = _
  after_results
  rw [at4_arg8 m ρ c]
  rfl

theorem at5_v8 : W5 m ρ c (Proc.devRef .tc main_v8) = invCol (launched m c main_arg11) := by
  show StableHlo.after hostOps2 (W4 m ρ c) (Proc.devRef .tc main_v8) = _
  after_results
  exact at4_v8 m ρ c

theorem at5_arg7 : W5 m ρ c (Proc.devRef .tc main_arg7) = launched m c main_arg7 := by
  show StableHlo.after hostOps2 (W4 m ρ c) (Proc.devRef .tc main_arg7) = _
  after_results
  exact at4_arg7 m ρ c

theorem at5_arg9 : W5 m ρ c (Proc.devRef .tc main_arg9) = launched m c main_arg9 := by
  show StableHlo.after hostOps2 (W4 m ρ c) (Proc.devRef .tc main_arg9) = _
  after_results
  exact at4_arg9 m ρ c

theorem at5_arg10 : W5 m ρ c (Proc.devRef .tc main_arg10) = launched m c main_arg10 := by
  show StableHlo.after hostOps2 (W4 m ρ c) (Proc.devRef .tc main_arg10) = _
  after_results
  exact at4_arg10 m ρ c

theorem at5_arg11 : W5 m ρ c (Proc.devRef .tc main_arg11) = launched m c main_arg11 := by
  show StableHlo.after hostOps2 (W4 m ρ c) (Proc.devRef .tc main_arg11) = _
  after_results
  exact at4_arg11 m ρ c

end Cert.KernelIdeal.Walk

end
-- ==== Proof.KerW7.lean ====
/-
  The kernel's buffers when its last region is entered.

  The third region (the projection) reads the second region's output through an input window and leaves it as it was;
  it rewrites only its own output array. The last stretch of host operations takes the neighbours' mean of the projected
  rows, transposes the last layer's self weights and reshapes the last bias.
-/
import proofs.«153461_j996432413260_2_alg».proof.Proof.KerW5

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg) (c : Dev nD)

theorem at6_v8 : W6 m ρ c (Proc.devRef .tc main_v8) = invCol (launched m c main_arg11) :=
  (W6_of_ne m ρ c main_v8 (by decide)).trans (at5_v8 m ρ c)

theorem at6_arg7 : W6 m ρ c (Proc.devRef .tc main_arg7) = launched m c main_arg7 :=
  (W6_of_ne m ρ c main_arg7 (by decide)).trans (at5_arg7 m ρ c)

theorem at6_arg9 : W6 m ρ c (Proc.devRef .tc main_arg9) = launched m c main_arg9 :=
  (W6_of_ne m ρ c main_arg9 (by decide)).trans (at5_arg9 m ρ c)

theorem at6_arg10 : W6 m ρ c (Proc.devRef .tc main_arg10) = launched m c main_arg10 :=
  (W6_of_ne m ρ c main_arg10 (by decide)).trans (at5_arg10 m ρ c)

theorem at6_arg11 : W6 m ρ c (Proc.devRef .tc main_arg11) = launched m c main_arg11 :=
  (W6_of_ne m ρ c main_arg11 (by decide)).trans (at5_arg11 m ρ c)

/-- The projection region reads the second region's output and writes it back unchanged. -/
theorem at6_v40 : W6 m ρ c (Proc.devRef .tc main_v40) = W5 m ρ c (Proc.devRef .tc main_v40) :=
  (W6_arr m ρ c 0).trans (((dat2 (V5 m ρ) c).arrAt_in 0 rfl _).trans (A_eq2 (V5 m ρ) c 0))

theorem at7_v40 : W7 m ρ c (Proc.devRef .tc main_v40) = W4 m ρ c (Proc.devRef .tc main_v40) := by
  show StableHlo.after hostOps3 (W6 m ρ c) (Proc.devRef .tc main_v40) = _
  after_results
  exact (at6_v40 m ρ c).trans (at5_v40 m ρ c)

set_option maxHeartbeats 4000000 in
theorem at7_v54 : W7 m ρ c (Proc.devRef .tc main_v54) = mean128 (W6 m ρ c (Proc.devRef .tc main_v42)) (launched m c main_arg10) (launched m c main_arg11) := by
  show StableHlo.after hostOps3 (W6 m ρ c) (Proc.devRef .tc main_v54) = _
  after_results
  rw [at6_arg10 m ρ c, at6_arg11 m ρ c, at6_v8 m ρ c]
  rfl

set_option maxHeartbeats 4000000 in
theorem at7_v55 : W7 m ρ c (Proc.devRef .tc main_v55) = trW2 (launched m c main_arg7) := by
  show StableHlo.after hostOps3 (W6 m ρ c) (Proc.devRef .tc main_v55) = _
  after_results
  rw [at6_arg7 m ρ c]
  rfl

set_option maxHeartbeats 4000000 in
theorem at7_v56 : W7 m ρ c (Proc.devRef .tc main_v56) = rowB2 (launched m c main_arg9) := by
  show StableHlo.after hostOps3 (W6 m ρ c) (Proc.devRef .tc main_v56) = _
  after_results
  rw [at6_arg9 m ρ c]
  rfl

end Cert.KernelIdeal.Walk

end
-- ==== Proof.Spec.lean ====
/-
  The mathematics both programs compute, written once, index by index, with no program operation in it.

  A graph has N nodes and E edges. Edge `e` reads node `row e` and adds into every node `n` with `e ∈ land n`;
  `D n` is node `n`'s in-degree clamped below by one. For a node-feature matrix `h` (N rows, C columns)

      agg h (n, c)     = 0 + Σ_{e ∈ land n} h (row e, c)                    the neighbours' sum
      meanDiv h (n, c) = agg h (n, c) / D n                                 the neighbours' mean, by a quotient
      meanMul h (n, c) = agg h (n, c) · (1 / D n)                           the same mean, by a reciprocal

  and a layer is `h·Wsᵀ + mean h·Wnᵀ + b`, followed by `max(·, 0)` except in the last layer. One program runs three such
  layers with `meanDiv` (`refNet`). The other uses `meanMul` and, in the last layer, takes the neighbours' mean AFTER
  multiplying by Wnᵀ (`kerNet`): it projects the 256 columns to 128 first and averages the projected rows.
  All values are extended reals; the weights enter as K×J matrices already transposed and the bias as a 1×J row, which is
  how each layer's dense part receives them.
-/
import Idealize.ShloMosaic.Lib.ValueIdx
import Idealize.ShloMosaic.PureOps.Ideal

noncomputable section

namespace Cert.Spec

open Idealize.ShloMosaic Idealize.ShloMosaic.ValueIdx

/-- An a×b matrix of extended reals, indexed as the programs' rank-2 arrays are. -/
abbrev Mat (a b : ℕ) := (⟨2, ![a, b]⟩ : Shape).Idx → EReal
/-- A vector of extended reals, indexed as the programs' rank-1 arrays are. -/
abbrev Vect (a : ℕ) := (⟨1, ![a]⟩ : Shape).Idx → EReal

variable {N E K J C : ℕ}

/-! ## The dense part of a layer -/

/-- A J×K weight matrix read transposed: entry (k, j) is W (j, k). -/
def tr (W : Mat J K) : Mat K J := fun i => W (ix2 (i 1 : Fin J) (i 0 : Fin K))

/-- A length-J bias as a 1×J row. -/
def rowvec (b : Vect J) : Mat 1 J := fun i => b (ix1 (i 1 : Fin J))

/-- `h·ws + a·wn + b` at (n, j): two sums over the K input columns, then the bias of column j. -/
def dense (h a : Mat N K) (ws wn : Mat K J) (b : Mat 1 J) : Mat N J := fun i =>
  (∑ k : Fin K, h (ix2 (i 0 : Fin N) k) * ws (ix2 k (i 1 : Fin J))
    + ∑ k : Fin K, a (ix2 (i 0 : Fin N) k) * wn (ix2 k (i 1 : Fin J))) + b (ix2 (0 : Fin 1) (i 1 : Fin J))

/-- The same followed by `max(·, 0)`. -/
def denseRelu (h a : Mat N K) (ws wn : Mat K J) (b : Mat 1 J) : Mat N J := fun i => max (dense h a ws wn b i) 0

/-- `h·w` at (n, j). -/
def proj (h : Mat N K) (w : Mat K J) : Mat N J := fun i =>
  ∑ k : Fin K, h (ix2 (i 0 : Fin N) k) * w (ix2 k (i 1 : Fin J))

/-- `h·ws + p + b` at (n, j), for an N×J matrix `p` added as it is. -/
def denseProj (h : Mat N K) (p : Mat N J) (ws : Mat K J) (b : Mat 1 J) : Mat N J := fun i =>
  (∑ k : Fin K, h (ix2 (i 0 : Fin N) k) * ws (ix2 k (i 1 : Fin J)) + p i) + b (ix2 (0 : Fin 1) (i 1 : Fin J))

/-! ## The neighbours' sum and mean -/

section Graph

variable (row : Fin E → Fin N) (land : Fin N → Finset (Fin E)) (D : Fin N → EReal)

/-- The sum over the edges landing on node n of the feature row each edge reads, column by column. -/
def agg (h : Mat N C) : Mat N C := fun i => 0 + ∑ e ∈ land (i 0 : Fin N), h (ix2 (row e) (i 1 : Fin C))

/-- The neighbours' mean, the sum divided by the clamped degree. -/
def meanDiv (h : Mat N C) : Mat N C := fun i => Ideal.div (agg row land h i) (D (i 0 : Fin N))

/-- The neighbours' mean, the sum times the clamped degree's reciprocal. -/
def meanMul (h : Mat N C) : Mat N C := fun i => agg row land h i * Ideal.div 1 (D (i 0 : Fin N))

/-! ## The two networks -/

/-- Three layers, each averaging the neighbours' rows and then multiplying by the neighbour weights. -/
def refNet {K₁ K₂ J₃ : ℕ} (x : Mat N C) (Ws₀ Wn₀ : Mat K₁ C) (b₀ : Vect K₁) (Ws₁ Wn₁ : Mat K₂ K₁) (b₁ : Vect K₂)
    (Ws₂ Wn₂ : Mat J₃ K₂) (b₂ : Vect J₃) : Mat N J₃ :=
  let h₁ := denseRelu x (meanDiv row land D x) (tr Ws₀) (tr Wn₀) (rowvec b₀)
  let h₂ := denseRelu h₁ (meanDiv row land D h₁) (tr Ws₁) (tr Wn₁) (rowvec b₁)
  dense h₂ (meanDiv row land D h₂) (tr Ws₂) (tr Wn₂) (rowvec b₂)

/-- The same three layers with the mean by a reciprocal, the last one multiplying by the neighbour weights BEFORE
    averaging over the neighbours. -/
def kerNet {K₁ K₂ J₃ : ℕ} (x : Mat N C) (Ws₀ Wn₀ : Mat K₁ C) (b₀ : Vect K₁) (Ws₁ Wn₁ : Mat K₂ K₁) (b₁ : Vect K₂)
    (Ws₂ Wn₂ : Mat J₃ K₂) (b₂ : Vect J₃) : Mat N J₃ :=
  let h₁ := denseRelu x (meanMul row land D x) (tr Ws₀) (tr Wn₀) (rowvec b₀)
  let h₂ := denseRelu h₁ (meanMul row land D h₁) (tr Ws₁) (tr Wn₁) (rowvec b₁)
  denseProj h₂ (meanMul row land D (proj h₂ (tr Wn₂))) (tr Ws₂) (rowvec b₂)

end Graph

end Cert.Spec

end
-- ==== Proof.LibRowGather.lean ====
/-
  A gather of rows, read at an index.

  The operand is an [N, C] array and the start indices an [E, 1] array of row numbers; the result is the [E, C]
  array whose row `e` is the operand's row `idx[e, 0]`, the row number read as a signed integer and clamped
  into `[0, N − 1]`. This is what `x[rows]` of a matrix lowers to: offset_dims [1], collapsed_slice_dims [0],
  start_index_map [0], index_vector_dim 1, slice_sizes [1, C].

  So column `c` of the result reads column `c` of the operand, at a row that depends on the row numbers only.
-/
import Idealize.ShloMosaic.Lib.ValueIdx

noncomputable section

namespace Idealize.ShloMosaic.RowGather

open Idealize.ShloMosaic Idealize.ShloMosaic.ValueIdx

variable {N E C : Nat} {α : Type}

/-- Of the two axes, only the row axis is named by the gather's start index map … -/
private theorem one_not_mem : (1 : Fin 2) ∉ ([0] : List (Fin 2)) := by decide
/-- … and only the column axis is kept as an offset axis. -/
private theorem zero_not_kept : (0 : Fin 2) ∉ (List.finRange 2).filter (fun a : Fin 2 => a ∉ ([0] ++ [] : List (Fin 2))) := by decide
private theorem one_kept : (1 : Fin 2) ∈ (List.finRange 2).filter (fun a : Fin 2 => a ∉ ([0] ++ [] : List (Fin 2))) := by decide

/-- The dimension numbers of a gather of [E, 1] row numbers out of an [N, C] operand. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand row a result row reads: its row number, read signed and clamped into `[0, N − 1]`. -/
def row {w : Nat} (hN : 0 < N) (idx : IVec ⟨2, ![E, 1]⟩ w) (e : Fin E) : Fin N :=
  ⟨min (idx (ix2 e (0 : Fin 1))).toInt.toNat (N - 1), by omega⟩

/-- Result index (e, c) reads its row number at start-indices index (e, 0). -/
theorem siIdx_eq (j : (⟨2, ![E, C]⟩ : Shape).Idx) :
    (dims N E C wf).siIdx j ⟨List.idxOf (0 : Fin 2) (dims N E C wf).startIndexMap,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- THE GATHER READ AT (e, c): the operand at (row e, c). -/
theorem gather_apply {w : Nat} (hN : 0 < N) (x : (⟨2, ![N, C]⟩ : Shape).Idx → α) (idx : IVec ⟨2, ![E, 1]⟩ w)
    (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0 + (dims N E C wf).offCoord (ix2 e c) 0 = _
    rw [GatherDims.batchCoord_eq_zero _ _ _ List.not_mem_nil, Nat.add_zero,
      GatherDims.offCoord_eq_zero _ _ _ (show (0 : Fin 2) ∉ (dims N E C wf).sKept from zero_not_kept), Nat.add_zero]
    unfold GatherDims.start
    rw [dif_pos (show (0 : Fin 2) ∈ (dims N E C wf).startIndexMap from List.mem_singleton.mpr rfl), siIdx_eq]
    rfl
  | ⟨1, _⟩ =>
    show (dims N E C wf).start (ix2 e c) idx 1 + (dims N E C wf).batchCoord (ix2 e c) 1 + (dims N E C wf).offCoord (ix2 e c) 1 = _
    rw [GatherDims.batchCoord_eq_zero _ _ _ List.not_mem_nil, Nat.add_zero]
    unfold GatherDims.start
    rw [dif_neg (show (1 : Fin 2) ∉ (dims N E C wf).startIndexMap from one_not_mem), Nat.zero_add]
    unfold GatherDims.offCoord
    rw [dif_pos (show (1 : Fin 2) ∈ (dims N E C wf).sKept from one_kept)]
    rfl

end Idealize.ShloMosaic.RowGather

end
-- ==== Proof.LibRowScatter.lean ====
/-
  A scatter-add of rows, read at an index, on the extended reals.

  The operand is an [N, C] array, the scatter indices an [E, 1] array of row numbers, the updates an [E, C]
  array: update row `e` is added onto operand row `idx[e, 0]` (read as a signed integer), column by column,
  and dropped when that row number is outside `[0, N)`. This is what `jax.ops.segment_sum` of an [E, C] array
  (and `x.at[rows].add(u)`) lowers to: update_window_dims [1], inserted_window_dims [0],
  scatter_dims_to_operand_dims [0], index_vector_dim 1.

  On the extended reals the result at (n, c) is the operand there plus the sum, over the update rows `e` whose
  row number is `n`, of the update at (e, c): a column of the result depends on the same column of the
  operand and the updates and on nothing else.
-/
import Idealize.ShloMosaic.Lib.ValueIdx
import Idealize.ShloMosaic.PureOps.Contract
import Idealize.ShloMosaic.PureOps.Ideal

noncomputable section

namespace Idealize.ShloMosaic.RowScatter

open Idealize.ShloMosaic Idealize.ShloMosaic.ValueIdx

variable {N E C : Nat}

/-- Of the two axes, only the row axis is named by the scatter's index map … -/
private theorem one_not_mem : (1 : Fin 2) ∉ ([0] : List (Fin 2)) := by decide
/-- … and only the column axis is kept as a window axis. -/
private theorem zero_not_kept : (0 : Fin 2) ∉ (List.finRange 2).filter (fun a : Fin 2 => a ∉ ([0] : List (Fin 2))) := by decide
private theorem one_kept : (1 : Fin 2) ∈ (List.finRange 2).filter (fun a : Fin 2 => a ∉ ([0] : List (Fin 2))) := by decide

/-- The dimension numbers of a scatter of [E, C] update rows into an [N, C] operand at [E, 1] row numbers. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- Update index (e, c) reads its row number at scatter-indices index (e, 0). -/
theorem siIdx_eq (j : (⟨2, ![E, C]⟩ : Shape).Idx) :
    (dims N E C wf).siIdx j ⟨List.idxOf (0 : Fin 2) (dims N E C wf).scatterDimsToOperandDims,
      List.idxOf_lt_length_iff.2 (List.mem_singleton.mpr rfl)⟩ = ix2 (j 0) (0 : Fin 1) := by
  funext b; refine Fin.ext ?_
  match b with
  | ⟨0, _⟩ => rfl
  | ⟨1, _⟩ => rfl

/-- On the row axis the window starts at the row number, read signed. -/
theorem start_zero {w : Nat} (j : (⟨2, ![E, C]⟩ : Shape).Idx) (idx : IVec ⟨2, ![E, 1]⟩ w) :
    (dims N E C wf).start j idx 0 = (idx (ix2 (j 0) (0 : Fin 1))).toInt := by
  unfold ScatterDims.start
  rw [dif_pos (show (0 : Fin 2) ∈ (dims N E C wf).scatterDimsToOperandDims from List.mem_singleton.mpr rfl), siIdx_eq]
  rfl

/-- On the column axis it starts at zero. -/
theorem start_one {w : Nat} (j : (⟨2, ![E, C]⟩ : Shape).Idx) (idx : IVec ⟨2, ![E, 1]⟩ w) :
    (dims N E C wf).start j idx 1 = 0 := by
  unfold ScatterDims.start
  rw [dif_neg (show (1 : Fin 2) ∉ (dims N E C wf).scatterDimsToOperandDims from one_not_mem)]

/-- The window has one row … -/
theorem window_zero (j : (⟨2, ![E, C]⟩ : Shape).Idx) : (dims N E C wf).window j 0 = 0 := by
  unfold ScatterDims.window
  rw [dif_neg (show (0 : Fin 2) ∉ (dims N E C wf).sKept from zero_not_kept)]

/-- … and the update's columns. -/
theorem window_one (j : (⟨2, ![E, C]⟩ : Shape).Idx) : (dims N E C wf).window j 1 = (j 1).val := by
  unfold ScatterDims.window
  rw [dif_pos (show (1 : Fin 2) ∈ (dims N E C wf).sKept from one_kept)]
  rfl

/-- Update index `j` lands on operand index (n, c) exactly when its row number is `n` and its column is `c`. -/
theorem resultIdx?_eq_some_iff {w : Nat} (j : (⟨2, ![E, C]⟩ : Shape).Idx) (idx : IVec ⟨2, ![E, 1]⟩ w) (n : Fin N) (c : Fin C) :
    (dims N E C wf).resultIdx? j idx = some (ix2 n c) ↔
      (idx (ix2 (j 0) (0 : Fin 1))).toInt = (n.val : Int) ∧ (j 1).val = c.val := by
  have hn := n.isLt
  have hc := c.isLt
  have hj1 : (j 1).val < C := (j 1).isLt
  unfold ScatterDims.resultIdx?
  split
  · next h =>
    have h0 := h 0
    have h1 := h 1
    rw [start_zero, window_zero] at h0
    rw [start_one, window_one] at h1
    rw [Option.some.injEq]
    constructor
    · intro hf
      have e0 := congrArg (fun f => (f 0).val) hf
      have e1 := congrArg (fun f => (f 1).val) hf
      simp only [start_zero, window_zero, start_one, window_one] at e0 e1
      have e0' : ((idx (ix2 (j 0) (0 : Fin 1))).toInt + ((0 : Nat) : Int)).toNat = n.val := e0
      have e1' : ((0 : Int) + ((j 1).val : Int)).toNat = c.val := e1
      constructor
      · omega
      · omega
    · rintro ⟨e0, e1⟩
      funext a; refine Fin.ext ?_
      match a with
      | ⟨0, _⟩ =>
        show ((dims N E C wf).start j idx 0 + ((dims N E C wf).window j 0 : Int)).toNat = n.val
        rw [start_zero, window_zero]; omega
      | ⟨1, _⟩ =>
        show ((dims N E C wf).start j idx 1 + ((dims N E C wf).window j 1 : Int)).toNat = c.val
        rw [start_one, window_one]; omega
  · next h =>
    constructor
    · intro hf; exact absurd hf (by simp)
    · rintro ⟨e0, e1⟩
      exfalso; apply h
      intro a
      match a with
      | ⟨0, _⟩ =>
        show 0 ≤ (dims N E C wf).start j idx 0 + ((dims N E C wf).window j 0 : Int) ∧
          (dims N E C wf).start j idx 0 + ((dims N E C wf).window j 0 : Int) < (N : Int)
        rw [start_zero, window_zero]; omega
      | ⟨1, _⟩ =>
        show 0 ≤ (dims N E C wf).start j idx 1 + ((dims N E C wf).window j 1 : Int) ∧
          (dims N E C wf).start j idx 1 + ((dims N E C wf).window j 1 : Int) < (C : Int)
        rw [start_one, window_one]; omega

/-- THE SCATTER-ADD READ AT (n, c), on the extended reals: the operand there plus the sum of column `c` of the update
    rows whose row number is `n`. -/
theorem scatterAdd_apply {φ : FTy} {w : Nat} (x : FVec Ideal ⟨2, ![N, C]⟩ φ) (idx : IVec ⟨2, ![E, 1]⟩ w)
    (upd : FVec Ideal ⟨2, ![E, C]⟩ φ) (n : Fin N) (c : Fin C) :
    Host.scatterAdd (dims N E C wf) x idx upd (ix2 n c)
      = x (ix2 n c) + ∑ e ∈ Finset.univ.filter (fun e : Fin E => (idx (ix2 e (0 : Fin 1))).toInt = (n.val : Int)), upd (ix2 e c) := by
  show Ideal.hostScatterAdd (dims N E C wf) x idx upd (ix2 n c) = _
  unfold Ideal.hostScatterAdd
  congr 1
  refine Finset.sum_nbij' (fun j => (j 0 : Fin E)) (fun e => ix2 e c) ?_ ?_ ?_ ?_ ?_
  · intro j hj
    have hj' := (Finset.mem_filter.1 hj).2
    exact Finset.mem_filter.2 ⟨Finset.mem_univ _, ((resultIdx?_eq_some_iff wf j idx n c).1 hj').1⟩
  · intro e he
    have he' := (Finset.mem_filter.1 he).2
    exact Finset.mem_filter.2 ⟨Finset.mem_univ _, (resultIdx?_eq_some_iff wf (ix2 e c) idx n c).2 ⟨he', rfl⟩⟩
  · intro j hj
    have h1 := ((resultIdx?_eq_some_iff wf j idx n c).1 (Finset.mem_filter.1 hj).2).2
    have hc : (j 1 : Fin C) = c := Fin.ext h1
    show ix2 (j 0 : Fin E) c = j
    rw [← hc]; exact (eq_ix2 j).symm
  · intro e _; rfl
  · intro j hj
    have h1 := ((resultIdx?_eq_some_iff wf j idx n c).1 (Finset.mem_filter.1 hj).2).2
    have hc : (j 1 : Fin C) = c := Fin.ext h1
    show upd j = upd (ix2 (j 0 : Fin E) c)
    rw [← hc]; exact congrArg upd (eq_ix2 j)

end Idealize.ShloMosaic.RowScatter

end
-- ==== Proof.LibColumnLaw.lean ====
/-
  The columns of "gather rows, scale each row, scatter-add the rows" do not mix.

  Take an [N, C] array `h`, row numbers `gidx` and `sidx` (each [E, 1]) and a scale `nrm` ([E, 1]). Message passing
  over E edges forms, for every edge `e`, the row `nrm[e] · h[gidx[e], :]`, and adds it onto row `sidx[e]` of an
  [N, C] operand `x`. Entry (n, c) of the result is
      x[n, c] + Σ_{e : sidx[e] = n} nrm[e] · h[row(gidx[e]), c],
  which mentions column `c` of `x` and of `h` only. Hence a window of C' columns starting at column `off` of
  the result is the same computation run on that window of `x` and `h`: slicing columns commutes with the gather,
  the scaling and the scatter-add. Nothing here uses finiteness — no sum is re-associated against a product.
-/
import proofs.«153461_j996432413260_2_alg».proof.Proof.LibRowGather
import proofs.«153461_j996432413260_2_alg».proof.Proof.LibRowScatter
import Idealize.ShloMosaic.Lib.Pipeline.Value

noncomputable section

namespace Idealize.ShloMosaic.ColumnLaw

open Idealize.ShloMosaic Idealize.ShloMosaic.ValueIdx

variable {N E C C' : Nat} {φ : FTy} {w : Nat}

/-- A column [E, 1] broadcast along a new second axis, read at (e, c): the column at (e, 0). -/
theorem bcastCols_apply (bc : (⟨2, ![E, 1]⟩ : Shape).BroadcastsInDim ⟨2, ![E, C]⟩ ![0, 1])
    (v : FVec Ideal ⟨2, ![E, 1]⟩ φ) (e : Fin E) (c : Fin C) :
    broadcastInDim ⟨2, ![E, C]⟩ ![0, 1] bc v (ix2 e c) = v (ix2 e (0 : Fin 1)) := by
  refine broadcastInDim_apply _ bc v (ix2 e c) (ix2 e (0 : Fin 1)) fun a => ?_
  match a with
  | ⟨0, _⟩ =>
    show e.val = if E = 1 then 0 else e.val
    have := e.isLt
    split <;> omega
  | ⟨1, _⟩ => rfl

/-- One message-passing step read at (n, c): the operand there plus, over the edges landing on row `n`, the scale
    times the gathered row's entry in column `c`. -/
theorem propagate_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (bc : (⟨2, ![E, 1]⟩ : Shape).BroadcastsInDim ⟨2, ![E, C]⟩ ![0, 1])
    (x h : FVec Ideal ⟨2, ![N, C]⟩ φ) (nrm : FVec Ideal ⟨2, ![E, 1]⟩ φ) (sidx gidx : IVec ⟨2, ![E, 1]⟩ w)
    (n : Fin N) (c : Fin C) :
    Host.scatterAdd (RowScatter.dims N E C wfS) x sidx
        (mulf (broadcastInDim ⟨2, ![E, C]⟩ ![0, 1] bc nrm) (Host.gather (RowGather.dims N E C wfG) h gidx)) (ix2 n c)
      = x (ix2 n c) + ∑ e ∈ Finset.univ.filter (fun e : Fin E => (sidx (ix2 e (0 : Fin 1))).toInt = (n.val : Int)),
          nrm (ix2 e (0 : Fin 1)) * h (ix2 (RowGather.row hN gidx e) c) := by
  rw [RowScatter.scatterAdd_apply]
  congr 1
  refine Finset.sum_congr rfl fun e _ => ?_
  rw [mulf_apply, bcastCols_apply, RowGather.gather_apply wfG hN]

/-- THE LAW: columns `off … off + C' − 1` of a message-passing step over C columns are the message-passing step over
    those columns of the operand (`hx`) and of the gathered array (`hh`). -/
theorem slice_propagate (hN : 0 < N) (off : Nat) (hoff : off + C' ≤ C)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (bc : (⟨2, ![E, 1]⟩ : Shape).BroadcastsInDim ⟨2, ![E, C]⟩ ![0, 1])
    (wfS' : ScatterDims.WF ⟨2, ![N, C']⟩ ⟨2, ![E, 1]⟩ ⟨2, ![E, C']⟩ [1] [0] [0] 1)
    (wfG' : GatherDims.WF ⟨2, ![N, C']⟩ ⟨2, ![E, 1]⟩ ⟨2, ![E, C']⟩ [1] [0] [] [0] [] 1 ![1, C'])
    (bc' : (⟨2, ![E, 1]⟩ : Shape).BroadcastsInDim ⟨2, ![E, C']⟩ ![0, 1])
    (hs : (⟨2, ![N, C]⟩ : Shape).Slices ![0, off] ⟨2, ![N, C']⟩)
    (x h : FVec Ideal ⟨2, ![N, C]⟩ φ) (x' h' : FVec Ideal ⟨2, ![N, C']⟩ φ)
    (hx : ∀ (n : Fin N) (c : Fin C'), x' (ix2 n c) = x (ix2 n ⟨off + c.val, by have := c.isLt; omega⟩))
    (hh : ∀ (n : Fin N) (c : Fin C'), h' (ix2 n c) = h (ix2 n ⟨off + c.val, by have := c.isLt; omega⟩))
    (nrm : FVec Ideal ⟨2, ![E, 1]⟩ φ) (sidx gidx : IVec ⟨2, ![E, 1]⟩ w) :
    extractStridedSlice ⟨2, ![N, C']⟩ ![0, off]
        (Host.scatterAdd (RowScatter.dims N E C wfS) x sidx
          (mulf (broadcastInDim ⟨2, ![E, C]⟩ ![0, 1] bc nrm) (Host.gather (RowGather.dims N E C wfG) h gidx))) hs
      = Host.scatterAdd (RowScatter.dims N E C' wfS') x' sidx
          (mulf (broadcastInDim ⟨2, ![E, C']⟩ ![0, 1] bc' nrm) (Host.gather (RowGather.dims N E C' wfG') h' gidx)) := by
  funext i
  obtain ⟨n, c, rfl⟩ : ∃ (n : Fin N) (c : Fin C'), i = ix2 n c := ⟨i 0, i 1, eq_ix2 i⟩
  have hc := c.isLt
  rw [extractStridedSlice_apply ![0, off] _ hs (ix2 n c) (ix2 n ⟨off + c.val, by omega⟩) (fun a => by
    match a with
    | ⟨0, _⟩ => show n.val = 0 + n.val; omega
    | ⟨1, _⟩ => rfl)]
  rw [propagate_apply hN wfS wfG bc, propagate_apply hN wfS' wfG' bc', hx]
  congr 1
  refine Finset.sum_congr rfl fun e _ => ?_
  rw [hh]

end Idealize.ShloMosaic.ColumnLaw

end
-- ==== Proof.LibPlainDot.lean ====
/-
  The plain product of an m×k by a k×n matrix, read at an index as a sum over the contracted coordinate, for ANY record
  with the plain dimension numbers (contract axis 1 of the left with axis 0 of the right, no batch axis) — both the host's
  `dot_general` and the matrix unit's product into a zero accumulator. At the ideal values.
-/
import Idealize.ShloMosaic.Lib.ValueIdx
import Idealize.ShloMosaic.PureOps.Ideal.Laws

namespace Cert.LibPlainDot

open Idealize.ShloMosaic Idealize.ShloMosaic.ValueIdx

variable {m k n : ℕ} {φ₁ φ₂ : FTy}

/-- The left operand's index at output (a, b) and contraction coordinate c is (a, c); the right operand's is (c, b). -/
theorem idx_apply (w : DotDims.WF ⟨2, ![m, k]⟩ ⟨2, ![k, n]⟩ ⟨2, ![m, n]⟩ [1] [0] [0] [1] [] []) (a : Fin m) (b : Fin n) (c : Fin k) :
    (⟨[1], [0], [0], [1], [], [], w⟩ : DotDims ⟨2, ![m, k]⟩ ⟨2, ![k, n]⟩ ⟨2, ![m, n]⟩).lhsIdx (ix2 a b)
        ((contrEquiv1 (⟨[1], [0], [0], [1], [], [], w⟩ : DotDims ⟨2, ![m, k]⟩ ⟨2, ![k, n]⟩ ⟨2, ![m, n]⟩) k rfl rfl).symm c) = ix2 a c
    ∧ (⟨[1], [0], [0], [1], [], [], w⟩ : DotDims ⟨2, ![m, k]⟩ ⟨2, ![k, n]⟩ ⟨2, ![m, n]⟩).rhsIdx (ix2 a b)
        ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; exact c2
    | ⟨1, _⟩ => simp [DotDims.rhsIdx]; rfl

/-- The host's product at (a, b) is the sum over c of A[a,c] · B[c,b]. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

/-- The matrix unit's product into the zero accumulator at (a, b) is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  rw [(idx_apply w a b c).1, (idx_apply w a b c).2]

end Cert.LibPlainDot
-- ==== Proof.OpsRead.lean ====
/-
  The host operations of one message-passing layer, read as the mathematics of Spec: whole-array equations between the
  operations' terms (at the extended reals) and the index-by-index definitions.

    gather rows, then scatter-add them into a zero array            =  agg
    that, divided by a column of row statistics spread over columns =  meanDiv
    that, times the reciprocal column spread over columns           =  meanMul
    a weight matrix with its axes swapped                           =  tr
    a bias vector seen as a one-row matrix                          =  rowvec
    h·ws + a·wn + the bias row spread over the rows                 =  dense,  and under max(·, 0) = denseRelu

  Everything is stated over arbitrary sizes N (rows), E (edges), C, K, J (columns) and over arbitrary evidence of the
  operations' side conditions, so that any program whose records have these dimension numbers instantiates it.
-/
import proofs.«153461_j996432413260_2_alg».proof.Proof.Spec
import proofs.«153461_j996432413260_2_alg».proof.Proof.LibRowGather
import proofs.«153461_j996432413260_2_alg».proof.Proof.LibRowScatter
import proofs.«153461_j996432413260_2_alg».proof.Proof.LibColumnLaw
import proofs.«153461_j996432413260_2_alg».proof.Proof.LibPlainDot
import Idealize.ShloMosaic.Lib.ValueIdx
import Idealize.ShloMosaic.Lib.IdealHost
import Idealize.ShloMosaic.Lib.Pipeline.Value
import Idealize.ShloMosaic.PureOps.Ideal.Laws

noncomputable section

namespace Cert.OpsRead

open Idealize.ShloMosaic Idealize.ShloMosaic.ValueIdx

variable {N E C K J : ℕ} {α : Type}

/-! ## Spreading a vector over a matrix -/

/-- A length-N vector made a column [N, 1] reads, at (n, 0), the vector at n. -/
theorem col_apply (bc' : (⟨1, ![N]⟩ : Shape).BroadcastsInDim ⟨2, ![N, 1]⟩ ![0])
    (v : (⟨1, ![N]⟩ : Shape).Idx → α) (n : Fin N) (u : Fin 1) :
    broadcastInDim ⟨2, ![N, 1]⟩ ![0] bc' v (ix2 n u) = v (ix1 n) := by
  refine broadcastInDim_apply _ bc' v (ix2 n u) (ix1 n) fun a => ?_
  match a with
  | ⟨0, _⟩ =>
    show n.val = if N = 1 then 0 else n.val
    have := n.isLt
    split <;> omega

/-- A column [N, 1] repeated along C columns reads, at (n, c), the column at (n, 0). -/
theorem cols_apply (bc : (⟨2, ![N, 1]⟩ : Shape).BroadcastsInDim ⟨2, ![N, C]⟩ ![0, 1])
    (v : (⟨2, ![N, 1]⟩ : Shape).Idx → α) (n : Fin N) (c : Fin C) :
    broadcastInDim ⟨2, ![N, C]⟩ ![0, 1] bc v (ix2 n c) = v (ix2 n (0 : Fin 1)) := by
  refine broadcastInDim_apply _ bc v (ix2 n c) (ix2 n (0 : Fin 1)) fun a => ?_
  match a with
  | ⟨0, _⟩ =>
    show n.val = if N = 1 then 0 else n.val
    have := n.isLt
    split <;> omega
  | ⟨1, _⟩ => rfl

/-- A ROW STATISTIC SPREAD OVER THE COLUMNS: a length-N vector made a column and repeated along C columns reads, at
    (n, c), the vector at n. -/
theorem colStat_apply (bc' : (⟨1, ![N]⟩ : Shape).BroadcastsInDim ⟨2, ![N, 1]⟩ ![0])
    (bc : (⟨2, ![N, 1]⟩ : Shape).BroadcastsInDim ⟨2, ![N, C]⟩ ![0, 1])
    (v : (⟨1, ![N]⟩ : Shape).Idx → α) (n : Fin N) (c : Fin C) :
    broadcastInDim ⟨2, ![N, C]⟩ ![0, 1] bc (broadcastInDim ⟨2, ![N, 1]⟩ ![0] bc' v) (ix2 n c) = v (ix1 n) := by
  rw [cols_apply, col_apply]

/-- A length-J vector made a row [1, J] reads, at (0, j), the vector at j. -/
theorem row_apply (bc' : (⟨1, ![J]⟩ : Shape).BroadcastsInDim ⟨2, ![1, J]⟩ ![1])
    (b : (⟨1, ![J]⟩ : Shape).Idx → α) (u : Fin 1) (j : Fin J) :
    broadcastInDim ⟨2, ![1, J]⟩ ![1] bc' b (ix2 u j) = b (ix1 j) := by
  refine broadcastInDim_apply _ bc' b (ix2 u j) (ix1 j) fun a => ?_
  match a with
  | ⟨0, _⟩ =>
    show j.val = if J = 1 then 0 else j.val
    have := j.isLt
    split <;> omega

/-- A row [1, J] repeated along N rows reads, at (n, j), the row at (0, j). -/
theorem rows_apply (bc : (⟨2, ![1, J]⟩ : Shape).BroadcastsInDim ⟨2, ![N, J]⟩ ![0, 1])
    (r : (⟨2, ![1, J]⟩ : Shape).Idx → α) (n : Fin N) (j : Fin J) :
    broadcastInDim ⟨2, ![N, J]⟩ ![0, 1] bc r (ix2 n j) = r (ix2 (0 : Fin 1) j) := by
  refine broadcastInDim_apply _ bc r (ix2 n j) (ix2 (0 : Fin 1) j) fun a => ?_
  match a with
  | ⟨0, _⟩ => rfl
  | ⟨1, _⟩ =>
    show j.val = if J = 1 then 0 else j.val
    have := j.isLt
    split <;> omega

/-- A BIAS SPREAD OVER THE ROWS: a length-J vector made a row and repeated along N rows reads, at (n, j), the vector
    at j. -/
theorem bias_apply (bc' : (⟨1, ![J]⟩ : Shape).BroadcastsInDim ⟨2, ![1, J]⟩ ![1])
    (bc : (⟨2, ![1, J]⟩ : Shape).BroadcastsInDim ⟨2, ![N, J]⟩ ![0, 1])
    (b : (⟨1, ![J]⟩ : Shape).Idx → α) (n : Fin N) (j : Fin J) :
    broadcastInDim ⟨2, ![N, J]⟩ ![0, 1] bc (broadcastInDim ⟨2, ![1, J]⟩ ![1] bc' b) (ix2 n j) = b (ix1 j) := by
  rw [rows_apply, row_apply]

/-- A length-J bias broadcast to a row [1, J] is the bias as a 1×J row. -/
theorem row_eq_rowvec (bc' : (⟨1, ![J]⟩ : Shape).BroadcastsInDim ⟨2, ![1, J]⟩ ![1]) (b : FVec Ideal ⟨1, ![J]⟩ .f32) :
    broadcastInDim ⟨2, ![1, J]⟩ ![1] bc' b = Cert.Spec.rowvec b := by
  funext i
  obtain ⟨u, j, rfl⟩ : ∃ (u : Fin 1) (j : Fin J), i = ix2 u j := ⟨i 0, i 1, eq_ix2 i⟩
  exact row_apply bc' b u j

/-- A length-J bias reshaped to [1, J] is the bias as a 1×J row. -/
theorem reshape_eq_rowvec (hc : (⟨1, ![J]⟩ : Shape).ShapeCasts ⟨2, ![1, J]⟩) (b : FVec Ideal ⟨1, ![J]⟩ .f32) :
    shapeCast ⟨2, ![1, J]⟩ b hc = Cert.Spec.rowvec b := by
  funext i
  obtain ⟨u, j, rfl⟩ : ∃ (u : Fin 1) (j : Fin J), i = ix2 u j := ⟨i 0, i 1, eq_ix2 i⟩
  refine shapeCast_apply b hc (ix2 u j) (ix1 j) ?_
  have hu : u.val = 0 := by omega
  rw [Shape.rowMajor_val_two, Shape.rowMajor_val_one]
  show j.val = u.val * J + j.val
  rw [hu, Nat.zero_mul, Nat.zero_add]

/-! ## A weight matrix with its axes swapped -/

/-- The transpose of a J×K matrix is the K×J matrix whose entry (k, j) is the entry (j, k). -/
theorem transpose_eq_tr (tw : (⟨2, ![J, K]⟩ : Shape).Transposes [1, 0] ⟨2, ![K, J]⟩) (W : FVec Ideal ⟨2, ![J, K]⟩ .f32) :
    transpose ⟨2, ![K, J]⟩ [1, 0] W tw = Cert.Spec.tr W := by
  funext i
  refine transpose_apply [1, 0] W tw i (ix2 (i 1 : Fin J) (i 0 : Fin K)) fun b => ?_
  match b with
  | ⟨0, _⟩ => rfl
  | ⟨1, _⟩ => rfl

/-! ## The neighbours' sum and mean -/

section Graph

variable {w : ℕ}
  (hN : 0 < N)
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (bc0 : (⟨0, ![]⟩ : Shape).BroadcastsInDim ⟨2, ![N, C]⟩ ![])

/-- GATHER THEN SCATTER-ADD INTO ZERO is the neighbours' sum: edge e reads the row its gather row number names (clamped)
    and lands on the row its scatter row number names. -/
theorem agg_read (h : FVec Ideal ⟨2, ![N, C]⟩ .f32) (si gi : IVec ⟨2, ![E, 1]⟩ w) :
    Host.scatterAdd (RowScatter.dims N E C wfS)
        (broadcastInDim ⟨2, ![N, C]⟩ ![] bc0 (constant (F := Ideal) ⟨0, ![]⟩ .f32 0x00000000#32)) si
        (Host.gather (RowGather.dims N E C wfG) h gi)
      = Cert.Spec.agg (RowGather.row hN gi)
          (fun n : Fin N => Finset.univ.filter fun e : Fin E => (si (ix2 e (0 : Fin 1))).toInt = (n.val : Int)) h := by
  funext i
  obtain ⟨n, c, rfl⟩ : ∃ (n : Fin N) (c : Fin C), i = ix2 n c := ⟨i 0, i 1, eq_ix2 i⟩
  rw [RowScatter.scatterAdd_apply]
  show _ = 0 + ∑ e ∈ Finset.univ.filter (fun e : Fin E => (si (ix2 e (0 : Fin 1))).toInt = (n.val : Int)),
    h (ix2 (RowGather.row hN gi e) c)
  congr 1
  · rw [broadcastInDim_scalar_apply, constant_apply, Ideal.ofBits_zero_f32]
  · exact Finset.sum_congr rfl fun e _ => RowGather.gather_apply wfG hN h gi e c

variable (bc' : (⟨1, ![N]⟩ : Shape).BroadcastsInDim ⟨2, ![N, 1]⟩ ![0])
  (bc : (⟨2, ![N, 1]⟩ : Shape).BroadcastsInDim ⟨2, ![N, C]⟩ ![0, 1])

/-- THE MEAN BY A QUOTIENT: the neighbours' sum divided, row by row, by a length-N vector of divisors spread over the
    columns. -/
theorem meanDiv_read (h : FVec Ideal ⟨2, ![N, C]⟩ .f32) (si gi : IVec ⟨2, ![E, 1]⟩ w) (Dv : FVec Ideal ⟨1, ![N]⟩ .f32) :
    Host.divf
        (Host.scatterAdd (RowScatter.dims N E C wfS)
          (broadcastInDim ⟨2, ![N, C]⟩ ![] bc0 (constant (F := Ideal) ⟨0, ![]⟩ .f32 0x00000000#32)) si
          (Host.gather (RowGather.dims N E C wfG) h gi))
        (broadcastInDim ⟨2, ![N, C]⟩ ![0, 1] bc (broadcastInDim ⟨2, ![N, 1]⟩ ![0] bc' Dv))
      = Cert.Spec.meanDiv (RowGather.row hN gi)
          (fun n : Fin N => Finset.univ.filter fun e : Fin E => (si (ix2 e (0 : Fin 1))).toInt = (n.val : Int))
          (fun n : Fin N => Dv (ix1 n)) h := by
  rw [agg_read hN wfS wfG bc0]
  funext i
  obtain ⟨n, c, rfl⟩ : ∃ (n : Fin N) (c : Fin C), i = ix2 n c := ⟨i 0, i 1, eq_ix2 i⟩
  rw [hostDivf_apply, colStat_apply]
  rfl

variable (bc1 : (⟨0, ![]⟩ : Shape).BroadcastsInDim ⟨1, ![N]⟩ ![])

/-- THE MEAN BY A RECIPROCAL: the neighbours' sum times, row by row, the reciprocals 1 / Dv of a length-N vector,
    the reciprocals taken first and then spread over the columns. -/
theorem meanMul_read (h : FVec Ideal ⟨2, ![N, C]⟩ .f32) (si gi : IVec ⟨2, ![E, 1]⟩ w) (Dv : FVec Ideal ⟨1, ![N]⟩ .f32) :
    mulf
        (Host.scatterAdd (RowScatter.dims N E C wfS)
          (broadcastInDim ⟨2, ![N, C]⟩ ![] bc0 (constant (F := Ideal) ⟨0, ![]⟩ .f32 0x00000000#32)) si
          (Host.gather (RowGather.dims N E C wfG) h gi))
        (broadcastInDim ⟨2, ![N, C]⟩ ![0, 1] bc (broadcastInDim ⟨2, ![N, 1]⟩ ![0] bc'
          (Host.divf (broadcastInDim ⟨1, ![N]⟩ ![] bc1 (constant (F := Ideal) ⟨0, ![]⟩ .f32 0x3F800000#32)) Dv)))
      = Cert.Spec.meanMul (RowGather.row hN gi)
          (fun n : Fin N => Finset.univ.filter fun e : Fin E => (si (ix2 e (0 : Fin 1))).toInt = (n.val : Int))
          (fun n : Fin N => Dv (ix1 n)) h := by
  rw [agg_read hN wfS wfG bc0]
  funext i
  obtain ⟨n, c, rfl⟩ : ∃ (n : Fin N) (c : Fin C), i = ix2 n c := ⟨i 0, i 1, eq_ix2 i⟩
  rw [mulf_apply, colStat_apply, hostDivf_apply, broadcastInDim_scalar_apply, constant_apply, Ideal.ofBits_one_f32]
  rfl

end Graph

/-! ## The dense part of a layer -/

section Dense

variable (wd : DotDims.WF ⟨2, ![N, K]⟩ ⟨2, ![K, J]⟩ ⟨2, ![N, J]⟩ [1] [0] [0] [1] [] [])
  (bc : (⟨2, ![1, J]⟩ : Shape).BroadcastsInDim ⟨2, ![N, J]⟩ ![0, 1])

/-- TWO PRODUCTS AND A BIAS ROW: h·ws + a·wn plus a 1×J row repeated along the rows is the dense part of a layer. -/
theorem dense_row_read (h a : FVec Ideal ⟨2, ![N, K]⟩ .f32) (ws wn : FVec Ideal ⟨2, ![K, J]⟩ .f32)
    (r : FVec Ideal ⟨2, ![1, J]⟩ .f32) :
    addf (addf
          (Host.dotGeneral (⟨[1], [0], [0], [1], [], [], wd⟩ : DotDims ⟨2, ![N, K]⟩ ⟨2, ![K, J]⟩ ⟨2, ![N, J]⟩) none h ws)
          (Host.dotGeneral (⟨[1], [0], [0], [1], [], [], wd⟩ : DotDims ⟨2, ![N, K]⟩ ⟨2, ![K, J]⟩ ⟨2, ![N, J]⟩) none a wn))
        (broadcastInDim ⟨2, ![N, J]⟩ ![0, 1] bc r)
      = Cert.Spec.dense h a ws wn r := by
  funext i
  obtain ⟨n, j, rfl⟩ : ∃ (n : Fin N) (j : Fin J), i = ix2 n j := ⟨i 0, i 1, eq_ix2 i⟩
  rw [addf_apply, addf_apply, Cert.LibPlainDot.dotGeneral_apply, Cert.LibPlainDot.dotGeneral_apply, rows_apply]
  rfl

variable (bc' : (⟨1, ![J]⟩ : Shape).BroadcastsInDim ⟨2, ![1, J]⟩ ![1])

/-- The same with the bias given as a length-J vector, made a row and repeated along the rows. -/
theorem dense_read (h a : FVec Ideal ⟨2, ![N, K]⟩ .f32) (ws wn : FVec Ideal ⟨2, ![K, J]⟩ .f32)
    (b : FVec Ideal ⟨1, ![J]⟩ .f32) :
    addf (addf
          (Host.dotGeneral (⟨[1], [0], [0], [1], [], [], wd⟩ : DotDims ⟨2, ![N, K]⟩ ⟨2, ![K, J]⟩ ⟨2, ![N, J]⟩) none h ws)
          (Host.dotGeneral (⟨[1], [0], [0], [1], [], [], wd⟩ : DotDims ⟨2, ![N, K]⟩ ⟨2, ![K, J]⟩ ⟨2, ![N, J]⟩) none a wn))
        (broadcastInDim ⟨2, ![N, J]⟩ ![0, 1] bc (broadcastInDim ⟨2, ![1, J]⟩ ![1] bc' b))
      = Cert.Spec.dense h a ws wn (Cert.Spec.rowvec b) := by
  rw [row_eq_rowvec, dense_row_read]

variable (bc0 : (⟨0, ![]⟩ : Shape).BroadcastsInDim ⟨2, ![N, J]⟩ ![])

/-- A maximum against the zero array is max(·, 0), entry by entry. -/
theorem relu_read (x : FVec Ideal ⟨2, ![N, J]⟩ .f32) :
    maximumf x (broadcastInDim ⟨2, ![N, J]⟩ ![] bc0 (constant (F := Ideal) ⟨0, ![]⟩ .f32 0x00000000#32))
      = fun i => max (x i) 0 := by
  funext i
  rw [maximumf_apply, broadcastInDim_scalar_apply, constant_apply, Ideal.ofBits_zero_f32]

/-- The dense part under max(·, 0). -/
theorem denseRelu_read (h a : FVec Ideal ⟨2, ![N, K]⟩ .f32) (ws wn : FVec Ideal ⟨2, ![K, J]⟩ .f32)
    (b : FVec Ideal ⟨1, ![J]⟩ .f32) :
    maximumf
        (addf (addf
          (Host.dotGeneral (⟨[1], [0], [0], [1], [], [], wd⟩ : DotDims ⟨2, ![N, K]⟩ ⟨2, ![K, J]⟩ ⟨2, ![N, J]⟩) none h ws)
          (Host.dotGeneral (⟨[1], [0], [0], [1], [], [], wd⟩ : DotDims ⟨2, ![N, K]⟩ ⟨2, ![K, J]⟩ ⟨2, ![N, J]⟩) none a wn))
          (broadcastInDim ⟨2, ![N, J]⟩ ![0, 1] bc (broadcastInDim ⟨2, ![1, J]⟩ ![1] bc' b)))
        (broadcastInDim ⟨2, ![N, J]⟩ ![] bc0 (constant (F := Ideal) ⟨0, ![]⟩ .f32 0x00000000#32))
      = Cert.Spec.denseRelu h a ws wn (Cert.Spec.rowvec b) := by
  rw [dense_read, relu_read]
  rfl

end Dense

end Cert.OpsRead

end
-- ==== Proof.MeanLaw.lean ====
/-
  Why the two networks of the specification agree on finite data.

  Two facts, both about one node n with its landing edges and the clamped degree D n ≥ 1:

  * a quotient by D n is a product with its reciprocal — on the extended reals `x / D = x · D⁻¹` whenever `D ≠ 0`,
    and `1 / D = 1 · D⁻¹`; no finiteness of `x` is needed, so the first two layers agree outright;
  * in the last layer one side averages the neighbours' rows and then multiplies by the neighbour weights, the other
    multiplies every row first and averages the products:
        Σ_k ((Σ_e h(row e, k)) · d) · w(k, j)  =  (Σ_e Σ_k h(row e, k) · w(k, j)) · d.
    This exchanges two finite sums and moves the factor `d` across them, which is sound for real numbers and fails at
    the infinities (∞ − ∞); it is the one place where the inputs' finiteness is used. The reciprocal `d = D⁻¹` is a
    real number for EVERY extended real D (the infinities invert to 0), so nothing is asked of the degree.

  For the second fact the last layer's input must be real-valued, so real-valuedness is carried through the first two
  layers: sums, products and maxima of real numbers are real numbers.
-/
import proofs.«153461_j996432413260_2_alg».proof.Proof.Spec

noncomputable section

namespace Cert.Spec

open Idealize.ShloMosaic Idealize.ShloMosaic.ValueIdx

/-! ## Real numbers among the extended reals -/

/-- The extended real `x` is a real number. -/
def IsReal (x : EReal) : Prop := ∃ r : ℝ, x = (r : EReal)

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum of real numbers taken among the extended reals is the real sum. -/
theorem coe_sum {ι : Type} (s : Finset ι) (f : ι → ℝ) : ∑ i ∈ s, ((f i : ℝ) : EReal) = ((∑ i ∈ s, f i : ℝ) : EReal) := by
  classical
  induction s using Finset.induction_on with
  | empty => rw [Finset.sum_empty, Finset.sum_empty]; rfl
  | insert a s ha ih => rw [Finset.sum_insert ha, Finset.sum_insert ha, ih, EReal.coe_add]

/-- Every extended real inverts to a real number: the infinities to zero. -/
theorem isReal_inv (D : EReal) : IsReal D⁻¹ := by
  induction D using EReal.rec with
  | bot => exact ⟨0, EReal.inv_bot⟩
  | coe x => exact ⟨x⁻¹, (EReal.coe_inv x).symm⟩
  | top => exact ⟨0, EReal.inv_top⟩

/-- Off zero, a quotient is the product with the inverse. -/
theorem div_eq_mul_inv {D : EReal} (hD : D ≠ 0) (x : EReal) : Ideal.div x D = x * D⁻¹ := by
  unfold Ideal.div; rw [if_neg hD]

/-- Off zero, the reciprocal is the inverse: a real number. -/
theorem one_div_eq_inv {D : EReal} (hD : D ≠ 0) : Ideal.div 1 D = D⁻¹ := by
  rw [div_eq_mul_inv hD, one_mul]

/-- A quantity clamped below by one is not zero. -/
theorem max_one_ne_zero (x : EReal) : max x 1 ≠ 0 :=
  (lt_of_lt_of_le zero_lt_one (le_max_right x 1)).ne'

/-! ## Real-valued arrays, and the layer operations on them -/

/-- Every entry of the array is a real number. -/
def RealArr {s : Shape} (h : s.Idx → EReal) : Prop := ∀ i, IsReal (h i)

variable {N E K J C : ℕ}

theorem RealArr.tr {W : Mat J K} (h : RealArr W) : RealArr (tr W) := fun _ => h _
theorem RealArr.rowvec {b : Vect J} (h : RealArr b) : RealArr (rowvec b) := fun _ => h _

theorem RealArr.dense {h a : Mat N K} {ws wn : Mat K J} {b : Mat 1 J} (hh : RealArr h) (ha : RealArr a)
    (hws : RealArr ws) (hwn : RealArr wn) (hb : RealArr b) : RealArr (dense h a ws wn b) := fun _ =>
  (((IsReal.sum _ _ fun _ _ => (hh _).mul (hws _)).add (IsReal.sum _ _ fun _ _ => (ha _).mul (hwn _))).add (hb _))

theorem RealArr.denseRelu {h a : Mat N K} {ws wn : Mat K J} {b : Mat 1 J} (hh : RealArr h) (ha : RealArr a)
    (hws : RealArr ws) (hwn : RealArr wn) (hb : RealArr b) : RealArr (denseRelu h a ws wn b) := fun i =>
  (RealArr.dense hh ha hws hwn hb i).max isReal_zero

section Graph

variable (row : Fin E → Fin N) (land : Fin N → Finset (Fin E)) (D : Fin N → EReal)

theorem RealArr.agg {h : Mat N C} (hh : RealArr h) : RealArr (agg row land h) := fun _ =>
  isReal_zero.add (IsReal.sum _ _ fun _ _ => hh _)

theorem RealArr.meanMul {h : Mat N C} (hD : ∀ n, D n ≠ 0) (hh : RealArr h) : RealArr (meanMul row land D h) := fun i => by
  obtain ⟨n, c, rfl⟩ : ∃ (n : Fin N) (c : Fin C), i = ix2 n c := ⟨i 0, i 1, eq_ix2 i⟩
  show IsReal ((0 + ∑ e ∈ land n, h (ix2 (row e) c)) * Ideal.div 1 (D n))
  rw [one_div_eq_inv (hD n)]
  exact (isReal_zero.add (IsReal.sum _ _ fun _ _ => hh _)).mul (isReal_inv _)

/-! ## The two facts -/

/-- The mean by a quotient is the mean by a reciprocal, for any features. -/
theorem meanDiv_eq_meanMul (hD : ∀ n, D n ≠ 0) (h : Mat N C) : meanDiv row land D h = meanMul row land D h := by
  funext i
  obtain ⟨n, c, rfl⟩ : ∃ (n : Fin N) (c : Fin C), i = ix2 n c := ⟨i 0, i 1, eq_ix2 i⟩
  show Ideal.div (agg row land h (ix2 n c)) (D n) = agg row land h (ix2 n c) * Ideal.div 1 (D n)
  rw [div_eq_mul_inv (hD n), one_div_eq_inv (hD n)]

end Graph

/-- Averaging real rows and then multiplying by real weights is multiplying every row and then averaging, for a real
    scale `d`: two finite sums exchanged and a factor moved across them, in the real numbers. -/
theorem sum_mean_mul {ι κ : Type} [Fintype κ] (s : Finset ι) (a : ι → κ → EReal) (w : κ → EReal) (d : EReal)
    (ha : ∀ e k, IsReal (a e k)) (hw : ∀ k, IsReal (w k)) (hd : IsReal d) :
    ∑ k, ((0 + ∑ e ∈ s, a e k) * d) * w k = (0 + ∑ e ∈ s, ∑ k, a e k * w k) * d := by
  choose ar har using ha
  choose wr hwr using hw
  obtain ⟨dr, rfl⟩ := hd
  simp only [har, hwr, zero_add]
  have e1 : ∀ k, ((∑ e ∈ s, ((ar e k : ℝ) : EReal)) * (dr : EReal)) * (wr k : EReal)
      = (((∑ e ∈ s, ar e k) * dr * wr k : ℝ) : EReal) := fun k => by
    rw [coe_sum, ← EReal.coe_mul, ← EReal.coe_mul]
  have e2 : ∀ e, (∑ k, ((ar e k : ℝ) : EReal) * (wr k : EReal)) = ((∑ k, ar e k * wr k : ℝ) : EReal) := fun e => by
    rw [← coe_sum]; exact Finset.sum_congr rfl fun k _ => (EReal.coe_mul _ _).symm
  simp only [e1, e2]
  rw [coe_sum, coe_sum, ← EReal.coe_mul, EReal.coe_eq_coe_iff]
  simp only [Finset.sum_mul]
  rw [Finset.sum_comm]
  exact Finset.sum_congr rfl fun e _ => Finset.sum_congr rfl fun k _ => by ring

section Graph

variable (row : Fin E → Fin N) (land : Fin N → Finset (Fin E)) (D : Fin N → EReal)

/-- The last layer: with real features and real neighbour weights, the mean of the rows times the weights is the mean
    of the projected rows. -/
theorem dense_meanMul_eq_denseProj (hD : ∀ n, D n ≠ 0) {h : Mat N K} {wn : Mat K J} (hh : RealArr h) (hwn : RealArr wn)
    (ws : Mat K J) (b : Mat 1 J) :
    dense h (meanMul row land D h) ws wn b = denseProj h (meanMul row land D (proj h wn)) ws b := by
  funext i
  obtain ⟨n, j, rfl⟩ : ∃ (n : Fin N) (j : Fin J), i = ix2 n j := ⟨i 0, i 1, eq_ix2 i⟩
  show (∑ k : Fin K, h (ix2 n k) * ws (ix2 k j)
        + ∑ k : Fin K, ((0 + ∑ e ∈ land n, h (ix2 (row e) k)) * Ideal.div 1 (D n)) * wn (ix2 k j)) + b (ix2 (0 : Fin 1) j)
      = (∑ k : Fin K, h (ix2 n k) * ws (ix2 k j)
        + (0 + ∑ e ∈ land n, ∑ k : Fin K, h (ix2 (row e) k) * wn (ix2 k j)) * Ideal.div 1 (D n)) + b (ix2 (0 : Fin 1) j)
  rw [one_div_eq_inv (hD n)]
  congr 2
  exact sum_mean_mul (land n) (fun e k => h (ix2 (row e) k)) (fun k => wn (ix2 k j)) _
    (fun _ _ => hh _) (fun _ => hwn _) (isReal_inv _)

/-- THE TWO NETWORKS AGREE on real-valued inputs, whatever the graph, for a nowhere-zero clamped degree. -/
theorem refNet_eq_kerNet {K₁ K₂ J₃ : ℕ} (hD : ∀ n, D n ≠ 0) {x : Mat N C} {Ws₀ Wn₀ : Mat K₁ C} {b₀ : Vect K₁}
    {Ws₁ Wn₁ : Mat K₂ K₁} {b₁ : Vect K₂} {Ws₂ Wn₂ : Mat J₃ K₂} {b₂ : Vect J₃}
    (hx : RealArr x) (hWs₀ : RealArr Ws₀) (hWn₀ : RealArr Wn₀) (hb₀ : RealArr b₀)
    (hWs₁ : RealArr Ws₁) (hWn₁ : RealArr Wn₁) (hb₁ : RealArr b₁) (hWn₂ : RealArr Wn₂) :
    refNet row land D x Ws₀ Wn₀ b₀ Ws₁ Wn₁ b₁ Ws₂ Wn₂ b₂ = kerNet row land D x Ws₀ Wn₀ b₀ Ws₁ Wn₁ b₁ Ws₂ Wn₂ b₂ := by
  unfold Spec.refNet Spec.kerNet
  simp only [meanDiv_eq_meanMul row land D hD]
  have h₁ := RealArr.denseRelu hx (RealArr.meanMul row land D hD hx) hWs₀.tr hWn₀.tr hb₀.rowvec
  have h₂ := RealArr.denseRelu h₁ (RealArr.meanMul row land D hD h₁) hWs₁.tr hWn₁.tr hb₁.rowvec
  exact dense_meanMul_eq_denseProj row land D hD h₂ hWn₂.tr _ _

end Graph

end Cert.Spec

end
-- ==== Proof.KerSpec.lean ====
/-
  The kernel program's host-side terms, as the mathematics of Spec.

  Between its pipelined regions the kernel program gathers the rows the edges read, adds them at the rows the edges land
  on, and scales every row by the reciprocal of its node's clamped in-degree: Spec's mean by a reciprocal, on the graph
  the two edge lists give. Its weight transposes and bias reshapes are Spec's tr and rowvec. The clamped degree is a
  maximum against one, so it is never zero.
-/
import proofs.«153461_j996432413260_2_alg».proof.Proof.KerTerms
import proofs.«153461_j996432413260_2_alg».proof.Proof.OpsRead
import proofs.«153461_j996432413260_2_alg».proof.Proof.MeanLaw

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo
open Idealize.ShloMosaic.ValueIdx

/-! ## The graph the two edge lists give -/

/-- The node each edge reads: its wrapped source, clamped into the node range. -/
abbrev rowOf (src : (⟨S800000, .i32⟩ : BufTy).Contents (Elt Ideal)) : Fin 800000 → Fin 50000 :=
  RowGather.row (N := 50000) (by decide) (gidx src)

/-- The edges landing on each node. -/
abbrev landOf (dst : (⟨S800000, .i32⟩ : BufTy).Contents (Elt Ideal)) : Fin 50000 → Finset (Fin 800000) :=
  fun n => Finset.univ.filter fun e : Fin 800000 => ((sidx dst) (ix2 e (0 : Fin 1))).toInt = (n.val : Int)

/-- Each node's clamped in-degree. -/
abbrev degOf (dst : (⟨S800000, .i32⟩ : BufTy).Contents (Elt Ideal)) : Fin 50000 → EReal :=
  fun n => degClamp dst (ix1 n)

/-- The clamped in-degree is a maximum against one: never zero. -/
theorem degOf_ne_zero (dst : (⟨S800000, .i32⟩ : BufTy).Contents (Elt Ideal)) (n : Fin 50000) : degOf dst n ≠ 0 := by
  show degClamp dst (ix1 n) ≠ 0
  unfold degClamp
  rw [maximumf_apply, broadcastInDim_scalar_apply, constant_apply, Ideal.ofBits_one_f32]
  exact Cert.Spec.max_one_ne_zero _

/-! ## The neighbours' mean -/

/-- The 256-column mean term is Spec's mean by a reciprocal. -/
theorem mean256_eq (h : (⟨S50000x256, .f32⟩ : BufTy).Contents (Elt Ideal))
    (src dst : (⟨S800000, .i32⟩ : BufTy).Contents (Elt Ideal)) :
    mean256 h src dst = Cert.Spec.meanMul (rowOf src) (landOf dst) (degOf dst) h := by
  unfold mean256 invCol
  exact Cert.OpsRead.meanMul_read _ _ _ _ _ _ _ h (sidx dst) (gidx src) (degClamp dst)

/-- The 128-column mean term is Spec's mean by a reciprocal. -/
theorem mean128_eq (h : (⟨S50000x128, .f32⟩ : BufTy).Contents (Elt Ideal))
    (src dst : (⟨S800000, .i32⟩ : BufTy).Contents (Elt Ideal)) :
    mean128 h src dst = Cert.Spec.meanMul (rowOf src) (landOf dst) (degOf dst) h := by
  unfold mean128 invCol
  exact Cert.OpsRead.meanMul_read _ _ _ _ _ _ _ h (sidx dst) (gidx src) (degClamp dst)

/-! ## Weights and biases -/

/-- A 256×256 weight matrix transposed is Spec's transpose. -/
theorem trW_eq (W : (⟨S256x256, .f32⟩ : BufTy).Contents (Elt Ideal)) : trW W = Cert.Spec.tr (J := 256) (K := 256) W := by
  unfold trW
  exact Cert.OpsRead.transpose_eq_tr _ W

/-- A 128×256 weight matrix transposed is Spec's transpose. -/
theorem trW2_eq (W : (⟨S128x256, .f32⟩ : BufTy).Contents (Elt Ideal)) : trW2 W = Cert.Spec.tr (J := 128) (K := 256) W := by
  unfold trW2
  exact Cert.OpsRead.transpose_eq_tr _ W

/-- A 256-entry bias reshaped to one row is Spec's row. -/
theorem rowB_eq (b : (⟨S256, .f32⟩ : BufTy).Contents (Elt Ideal)) : rowB b = Cert.Spec.rowvec (J := 256) b := by
  unfold rowB
  exact Cert.OpsRead.reshape_eq_rowvec _ b

/-- A 128-entry bias reshaped to one row is Spec's row. -/
theorem rowB2_eq (b : (⟨S128, .f32⟩ : BufTy).Contents (Elt Ideal)) : rowB2 b = Cert.Spec.rowvec (J := 128) b := by
  unfold rowB2
  exact Cert.OpsRead.reshape_eq_rowvec _ b

end Cert.KernelIdeal.Walk

end
-- ==== Proof.Region0.lean ====
/-
  Region 0, from blocks to the array. One layer's dense part followed by the clamp at zero: at each of ten grid points the
  region loads one block of 5000 rows of the 50000×256 features, the same rows of the 50000×256 neighbours' mean, the two
  whole 256×256 weight matrices and the 1×256 bias, and writes back, as the same row block of the output, the features' block
  times the first weights plus the mean's block times the second weights, plus the bias row, clamped below at zero. Here: that
  block at an index; each input block's entry as an entry of its whole array; what a grid point writes back as a block of the
  whole-array function; the ten blocks cover the output; so the output array ends holding that function of the five arrays.
-/
import proofs.«153461_j996432413260_2_alg».proof.Proof.Gen.KernelIdeal.Frame
import proofs.«153461_j996432413260_2_alg».proof.Proof.Spec
import proofs.«153461_j996432413260_2_alg».proof.Proof.LibPlainDot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- A layer's block at (p, q): the two products' sums over the 256 contracted columns, plus the bias of column q,
    clamped below at zero. -/
theorem denseRelu_block_apply0 (xh : Vec Ideal S5000x256 .f32) (xws : Vec Ideal S256x256 .f32) (xa : Vec Ideal S5000x256 .f32)
    (xwn : Vec Ideal S256x256 .f32) (xb : Vec Ideal S1x256 .f32) (p : Fin 5000) (q : Fin 256) :
    k0_pay1 (F := Ideal) xh xws xa xwn xb (ix2 p q)
      = max ((∑ k : Fin 256, xh (ix2 p k) * xws (ix2 k q) + ∑ k : Fin 256, xa (ix2 p k) * xwn (ix2 k q))
          + xb (ix2 (0 : Fin 1) q)) 0 := by
  unfold k0_pay1
  simp only [shapeCast_self, addf_apply, maximumf_apply, broadcast_apply]
  rw [broadcastTo_1b_ab_apply]
  have hzero : (FloatOps.ofBits (F := Ideal) FTy.f32 0x00000000#32) = 0 := Ideal.ofBits_zero_f32
  rw [hzero]
  exact congrArg₂ (fun s s' => max (s + s' + xb (ix2 (0 : Fin 1) q)) 0)
    (Cert.LibPlainDot.matmul_zero_apply _ _ xh xws p q) (Cert.LibPlainDot.matmul_zero_apply _ _ xa xwn p q)

/-- When the blocks' entries that (p, q) reads are the whole arrays' entries that index i reads, the block at (p, q) is
    the whole-array function at i. -/
theorem denseRelu_point0 (A Ag : Cert.Spec.Mat 50000 256) (Ws Wn : Cert.Spec.Mat 256 256) (B : Cert.Spec.Mat 1 256)
    (xh : Vec Ideal S5000x256 .f32) (xws : Vec Ideal S256x256 .f32) (xa : Vec Ideal S5000x256 .f32)
    (xwn : Vec Ideal S256x256 .f32) (xb : Vec Ideal S1x256 .f32) (i : S50000x256.Idx) (p : Fin 5000) (q : Fin 256)
    (h0 : ∀ k : Fin 256, xh (ix2 p k) = A (ix2 (i 0 : Fin 50000) k))
    (h1 : ∀ k : Fin 256, xa (ix2 p k) = Ag (ix2 (i 0 : Fin 50000) k))
    (h2 : ∀ k : Fin 256, xws (ix2 k q) = Ws (ix2 k (i 1 : Fin 256)))
    (h3 : ∀ k : Fin 256, xwn (ix2 k q) = Wn (ix2 k (i 1 : Fin 256)))
    (h4 : xb (ix2 (0 : Fin 1) q) = B (ix2 (0 : Fin 1) (i 1 : Fin 256))) :
    k0_pay1 (F := Ideal) xh xws xa xwn xb (ix2 p q) = Cert.Spec.denseRelu A Ag Ws Wn B i := by
  have hs : ∑ k : Fin 256, xh (ix2 p k) * xws (ix2 k q) = ∑ k : Fin 256, A (ix2 (i 0 : Fin 50000) k) * Ws (ix2 k (i 1 : Fin 256)) :=
    Finset.sum_congr rfl fun k _ => by rw [h0, h2]
  have hn : ∑ k : Fin 256, xa (ix2 p k) * xwn (ix2 k q) = ∑ k : Fin 256, Ag (ix2 (i 0 : Fin 50000) k) * Wn (ix2 k (i 1 : Fin 256)) :=
    Finset.sum_congr rfl fun k _ => by rw [h1, h3]
  rw [denseRelu_block_apply0, h4, hs, hn]
  rfl

theorem zero_offsets0 : (![0, 0] : Fin 2 → Nat) = fun _ => 0 := funext fun a => by fin_cases a <;> rfl

/-- The six windows' block indices at grid point t: the three row windows sit at block row t, the two weight matrices
    and the bias at their one block. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row block t of the 50000×256 features: its (p, k) entry is the array's (5000 t + p, k) entry. -/
theorem rows_block0_0 (c : Dev nD) (t : Fin cfg0.N) (p : Fin 5000) (k : Fin 256) (i : S50000x256.Idx)
    (hi0 : (i 0).val = t.val * 5000 + p.val) (hi1 : (i 1).val = k.val) :
    (iblk0 V c 0 t : Vec Ideal S5000x256 .f32) (ix2 p k) = (V c (Pipeline.arrRef spec0 0) : Cert.Spec.Mat 50000 256) i := by
  obtain ⟨e0, e1, -⟩ := index0 t
  show (V c (Pipeline.arrRef spec0 0) : S50000x256.Idx → EReal) (((cfg0.win 0).blk t).view.emb (ix2 p k)) = _
  refine congrArg (V c (Pipeline.arrRef spec0 0) : S50000x256.Idx → EReal) (funext fun a => Fin.ext ?_)
  match a with
  | ⟨0, _⟩ => show win0_0.index t 0 * 5000 + 1 * p.val = (i 0).val; rw [e0, hi0]; omega
  | ⟨1, _⟩ => show win0_0.index t 1 * 256 + 1 * k.val = (i 1).val; rw [e1, hi1]; omega

/-- Row block t of the 50000×256 neighbours' mean: its (p, k) entry is the array's (5000 t + p, k) entry. -/
theorem rows_block0_1 (c : Dev nD) (t : Fin cfg0.N) (p : Fin 5000) (k : Fin 256) (i : S50000x256.Idx)
    (hi0 : (i 0).val = t.val * 5000 + p.val) (hi1 : (i 1).val = k.val) :
    (iblk0 V c 1 t : Vec Ideal S5000x256 .f32) (ix2 p k) = (V c (Pipeline.arrRef spec0 1) : Cert.Spec.Mat 50000 256) i := by
  obtain ⟨-, -, e0, e1, -⟩ := index0 t
  show (V c (Pipeline.arrRef spec0 1) : S50000x256.Idx → EReal) (((cfg0.win 1).blk t).view.emb (ix2 p k)) = _
  refine congrArg (V c (Pipeline.arrRef spec0 1) : S50000x256.Idx → EReal) (funext fun a => Fin.ext ?_)
  match a with
  | ⟨0, _⟩ => show win0_1.index t 0 * 5000 + 1 * p.val = (i 0).val; rw [e0, hi0]; omega
  | ⟨1, _⟩ => show win0_1.index t 1 * 256 + 1 * k.val = (i 1).val; rw [e1, hi1]; omega

/-- The first weight window's one block is the whole 256×256 array. -/
theorem whole_block0_2 (c : Dev nD) (t : Fin cfg0.N) (k : Fin 256) (q : Fin 256) (i : S256x256.Idx)
    (hi0 : (i 0).val = k.val) (hi1 : (i 1).val = q.val) :
    (iblk0 V c 2 t : Vec Ideal S256x256 .f32) (ix2 k q) = (V c (Pipeline.arrRef spec0 2) : Cert.Spec.Mat 256 256) i := by
  obtain ⟨-, -, -, -, e0, e1, -⟩ := index0 t
  show (V c (Pipeline.arrRef spec0 2) : S256x256.Idx → EReal) (((cfg0.win 2).blk t).view.emb (ix2 k q)) = _
  refine congrArg (V c (Pipeline.arrRef spec0 2) : S256x256.Idx → EReal) (funext fun a => Fin.ext ?_)
  match a with
  | ⟨0, _⟩ => show win0_2.index t 0 * 256 + 1 * k.val = (i 0).val; rw [e0, hi0]; omega
  | ⟨1, _⟩ => show win0_2.index t 1 * 256 + 1 * q.val = (i 1).val; rw [e1, hi1]; omega

/-- The second weight window's one block is the whole 256×256 array. -/
theorem whole_block0_3 (c : Dev nD) (t : Fin cfg0.N) (k : Fin 256) (q : Fin 256) (i : S256x256.Idx)
    (hi0 : (i 0).val = k.val) (hi1 : (i 1).val = q.val) :
    (iblk0 V c 3 t : Vec Ideal S256x256 .f32) (ix2 k q) = (V c (Pipeline.arrRef spec0 3) : Cert.Spec.Mat 256 256) i := by
  obtain ⟨-, -, -, -, -, -, e0, e1, -⟩ := index0 t
  show (V c (Pipeline.arrRef spec0 3) : S256x256.Idx → EReal) (((cfg0.win 3).blk t).view.emb (ix2 k q)) = _
  refine congrArg (V c (Pipeline.arrRef spec0 3) : S256x256.Idx → EReal) (funext fun a => Fin.ext ?_)
  match a with
  | ⟨0, _⟩ => show win0_3.index t 0 * 256 + 1 * k.val = (i 0).val; rw [e0, hi0]; omega
  | ⟨1, _⟩ => show win0_3.index t 1 * 256 + 1 * q.val = (i 1).val; rw [e1, hi1]; omega

/-- The bias window's one block is the whole 1×256 row. -/
theorem whole_block0_4 (c : Dev nD) (t : Fin cfg0.N) (q : Fin 256) (i : S1x256.Idx)
    (hi0 : (i 0).val = 0) (hi1 : (i 1).val = q.val) :
    (iblk0 V c 4 t : Vec Ideal S1x256 .f32) (ix2 (0 : Fin 1) q) = (V c (Pipeline.arrRef spec0 4) : Cert.Spec.Mat 1 256) i := by
  obtain ⟨-, -, -, -, -, -, -, -, e0, e1, -⟩ := index0 t
  show (V c (Pipeline.arrRef spec0 4) : S1x256.Idx → EReal) (((cfg0.win 4).blk t).view.emb (ix2 (0 : Fin 1) q)) = _
  refine congrArg (V c (Pipeline.arrRef spec0 4) : S1x256.Idx → EReal) (funext fun a => Fin.ext ?_)
  match a with
  | ⟨0, _⟩ => show win0_4.index t 0 * 1 + 1 * (0 : Fin 1).val = (i 0).val; rw [e0, hi0]; rfl
  | ⟨1, _⟩ => show win0_4.index t 1 * 256 + 1 * q.val = (i 1).val; rw [e1, hi1]; omega

/-- What grid point t writes back is block t of the layer's dense part, clamped at zero, of the five arrays as the
    region finds them. -/
theorem flushed0_eq (c : Dev nD) (t : Fin cfg0.N) :
    (dat0 (F := Ideal) V c).flushed 5 t = ((cfg0.win 5).blk t).view.read (Elt Ideal)
      (Cert.Spec.denseRelu (N := 50000) (K := 256) (J := 256) (V c (Pipeline.arrRef spec0 0)) (V c (Pipeline.arrRef spec0 1))
        (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero zero_offsets0]
  simp only [View.ld_unit_zero (S := S5000x256) zero_offsets0, View.ld_unit_zero (S := S256x256) zero_offsets0,
    View.ld_unit_zero (S := S1x256) zero_offsets0]
  obtain ⟨-, -, -, -, -, -, -, -, -, -, e0, e1⟩ := index0 t
  funext j
  have hj0 : (j 0).val < 5000 := (j 0).isLt
  have hj1 : (j 1).val < 256 := (j 1).isLt
  have hj : (win0 5).xinj (grid0.coords t) j = ix2 (⟨(j 0).val, hj0⟩ : Fin 5000) (⟨(j 1).val, hj1⟩ : Fin 256) :=
    funext fun a => by
      match a with
      | ⟨0, _⟩ => rfl
      | ⟨1, _⟩ => rfl
  show k0_pay1 (F := Ideal) _ _ _ _ _ ((win0 5).xinj (grid0.coords t) j)
    = Cert.Spec.denseRelu (N := 50000) (K := 256) (J := 256) (V c (Pipeline.arrRef spec0 0)) (V c (Pipeline.arrRef spec0 1))
        (V c (Pipeline.arrRef spec0 2)) (V c (Pipeline.arrRef spec0 3)) (V c (Pipeline.arrRef spec0 4))
        (((cfg0.win 5).blk t).view.emb j)
  rw [hj]
  have c0 : ((((cfg0.win 5).blk t).view.emb j) 0).val = t.val * 5000 + (j 0).val := by
    show win0_5.index t 0 * 5000 + 1 * (j 0).val = _; rw [e0]; omega
  have c1 : ((((cfg0.win 5).blk t).view.emb j) 1).val = (j 1).val := by
    show win0_5.index t 1 * 256 + 1 * (j 1).val = _; rw [e1]; omega
  exact denseRelu_point0 _ _ _ _ _ _ _ _ _ _ _ _ _ (fun k => rows_block0_0 V c t _ k _ c0 rfl)
    (fun k => rows_block0_1 V c t _ k _ c0 rfl) (fun k => whole_block0_2 V c t k _ _ rfl c1)
    (fun k => whole_block0_3 V c t k _ _ rfl c1) (whole_block0_4 V c t _ _ rfl c1)

/-- An index of the output array is in grid point t's block iff each coordinate lies in the block's range on its axis. -/
theorem mem_block0 (t : Fin cfg0.N) (i : S50000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v24).slice (win0_5.rect t)).set ↔ _
  rw [View.set_slice_whole, Rect.mem_set_unit]
  exact Iff.rfl

/-- Row r of the output lies in the block of grid point r / 5000: the ten row blocks cover the array. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, -, -, e0, e1⟩ := index0 t
  refine ⟨t, flush0_5 t, ?_⟩
  rw [mem_block0]
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 256 ≤ (i 1).val ∧ (i 1).val < win0_5.index t 1 * 256 + 256
    rw [e1]; omega

/-- After the region the output array holds the layer's dense part, clamped at zero, of the five arrays as the region
    found them. -/
theorem final0 (c : Dev nD) :
    (dat0 (F := Ideal) V c).arrAt 5 cfg0.N
      = Cert.Spec.denseRelu (N := 50000) (K := 256) (J := 256) (V c (Pipeline.arrRef spec0 0)) (V c (Pipeline.arrRef spec0 1))
          (V c (Pipeline.arrRef spec0 2)) (V c (Pipeline.arrRef spec0 3)) (V c (Pipeline.arrRef spec0 4)) :=
  (dat0 V c).arrAt_eq_of_cover 5 _ (fun t _ => flushed0_eq V c t) cover0

end Cert.KernelIdeal.Regions
end
-- ==== Proof.Region1.lean ====
/-
  Region 1, from blocks to the array. One layer's dense part followed by the clamp at zero: at each of ten grid points the
  region loads one block of 5000 rows of the 50000×256 features, the same rows of the 50000×256 neighbours' mean, the two
  whole 256×256 weight matrices and the 1×256 bias, and writes back, as the same row block of the output, the features' block
  times the first weights plus the mean's block times the second weights, plus the bias row, clamped below at zero. Here: that
  block at an index; each input block's entry as an entry of its whole array; what a grid point writes back as a block of the
  whole-array function; the ten blocks cover the output; so the output array ends holding that function of the five arrays.
-/
import proofs.«153461_j996432413260_2_alg».proof.Proof.Gen.KernelIdeal.Frame
import proofs.«153461_j996432413260_2_alg».proof.Proof.Spec
import proofs.«153461_j996432413260_2_alg».proof.Proof.LibPlainDot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- A layer's block at (p, q): the two products' sums over the 256 contracted columns, plus the bias of column q,
    clamped below at zero. -/
theorem denseRelu_block_apply1 (xh : Vec Ideal S5000x256 .f32) (xws : Vec Ideal S256x256 .f32) (xa : Vec Ideal S5000x256 .f32)
    (xwn : Vec Ideal S256x256 .f32) (xb : Vec Ideal S1x256 .f32) (p : Fin 5000) (q : Fin 256) :
    k1_pay1 (F := Ideal) xh xws xa xwn xb (ix2 p q)
      = max ((∑ k : Fin 256, xh (ix2 p k) * xws (ix2 k q) + ∑ k : Fin 256, xa (ix2 p k) * xwn (ix2 k q))
          + xb (ix2 (0 : Fin 1) q)) 0 := by
  unfold k1_pay1
  simp only [shapeCast_self, addf_apply, maximumf_apply, broadcast_apply]
  rw [broadcastTo_1b_ab_apply]
  have hzero : (FloatOps.ofBits (F := Ideal) FTy.f32 0x00000000#32) = 0 := Ideal.ofBits_zero_f32
  rw [hzero]
  exact congrArg₂ (fun s s' => max (s + s' + xb (ix2 (0 : Fin 1) q)) 0)
    (Cert.LibPlainDot.matmul_zero_apply _ _ xh xws p q) (Cert.LibPlainDot.matmul_zero_apply _ _ xa xwn p q)

/-- When the blocks' entries that (p, q) reads are the whole arrays' entries that index i reads, the block at (p, q) is
    the whole-array function at i. -/
theorem denseRelu_point1 (A Ag : Cert.Spec.Mat 50000 256) (Ws Wn : Cert.Spec.Mat 256 256) (B : Cert.Spec.Mat 1 256)
    (xh : Vec Ideal S5000x256 .f32) (xws : Vec Ideal S256x256 .f32) (xa : Vec Ideal S5000x256 .f32)
    (xwn : Vec Ideal S256x256 .f32) (xb : Vec Ideal S1x256 .f32) (i : S50000x256.Idx) (p : Fin 5000) (q : Fin 256)
    (h0 : ∀ k : Fin 256, xh (ix2 p k) = A (ix2 (i 0 : Fin 50000) k))
    (h1 : ∀ k : Fin 256, xa (ix2 p k) = Ag (ix2 (i 0 : Fin 50000) k))
    (h2 : ∀ k : Fin 256, xws (ix2 k q) = Ws (ix2 k (i 1 : Fin 256)))
    (h3 : ∀ k : Fin 256, xwn (ix2 k q) = Wn (ix2 k (i 1 : Fin 256)))
    (h4 : xb (ix2 (0 : Fin 1) q) = B (ix2 (0 : Fin 1) (i 1 : Fin 256))) :
    k1_pay1 (F := Ideal) xh xws xa xwn xb (ix2 p q) = Cert.Spec.denseRelu A Ag Ws Wn B i := by
  have hs : ∑ k : Fin 256, xh (ix2 p k) * xws (ix2 k q) = ∑ k : Fin 256, A (ix2 (i 0 : Fin 50000) k) * Ws (ix2 k (i 1 : Fin 256)) :=
    Finset.sum_congr rfl fun k _ => by rw [h0, h2]
  have hn : ∑ k : Fin 256, xa (ix2 p k) * xwn (ix2 k q) = ∑ k : Fin 256, Ag (ix2 (i 0 : Fin 50000) k) * Wn (ix2 k (i 1 : Fin 256)) :=
    Finset.sum_congr rfl fun k _ => by rw [h1, h3]
  rw [denseRelu_block_apply1, h4, hs, hn]
  rfl

theorem zero_offsets1 : (![0, 0] : Fin 2 → Nat) = fun _ => 0 := funext fun a => by fin_cases a <;> rfl

/-- The six windows' block indices at grid point t: the three row windows sit at block row t, the two weight matrices
    and the bias at their one block. -/
theorem index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row block t of the 50000×256 features: its (p, k) entry is the array's (5000 t + p, k) entry. -/
theorem rows_block1_0 (c : Dev nD) (t : Fin cfg1.N) (p : Fin 5000) (k : Fin 256) (i : S50000x256.Idx)
    (hi0 : (i 0).val = t.val * 5000 + p.val) (hi1 : (i 1).val = k.val) :
    (iblk1 V c 0 t : Vec Ideal S5000x256 .f32) (ix2 p k) = (V c (Pipeline.arrRef spec1 0) : Cert.Spec.Mat 50000 256) i := by
  obtain ⟨e0, e1, -⟩ := index1 t
  show (V c (Pipeline.arrRef spec1 0) : S50000x256.Idx → EReal) (((cfg1.win 0).blk t).view.emb (ix2 p k)) = _
  refine congrArg (V c (Pipeline.arrRef spec1 0) : S50000x256.Idx → EReal) (funext fun a => Fin.ext ?_)
  match a with
  | ⟨0, _⟩ => show win1_0.index t 0 * 5000 + 1 * p.val = (i 0).val; rw [e0, hi0]; omega
  | ⟨1, _⟩ => show win1_0.index t 1 * 256 + 1 * k.val = (i 1).val; rw [e1, hi1]; omega

/-- Row block t of the 50000×256 neighbours' mean: its (p, k) entry is the array's (5000 t + p, k) entry. -/
theorem rows_block1_1 (c : Dev nD) (t : Fin cfg1.N) (p : Fin 5000) (k : Fin 256) (i : S50000x256.Idx)
    (hi0 : (i 0).val = t.val * 5000 + p.val) (hi1 : (i 1).val = k.val) :
    (iblk1 V c 1 t : Vec Ideal S5000x256 .f32) (ix2 p k) = (V c (Pipeline.arrRef spec1 1) : Cert.Spec.Mat 50000 256) i := by
  obtain ⟨-, -, e0, e1, -⟩ := index1 t
  show (V c (Pipeline.arrRef spec1 1) : S50000x256.Idx → EReal) (((cfg1.win 1).blk t).view.emb (ix2 p k)) = _
  refine congrArg (V c (Pipeline.arrRef spec1 1) : S50000x256.Idx → EReal) (funext fun a => Fin.ext ?_)
  match a with
  | ⟨0, _⟩ => show win1_1.index t 0 * 5000 + 1 * p.val = (i 0).val; rw [e0, hi0]; omega
  | ⟨1, _⟩ => show win1_1.index t 1 * 256 + 1 * k.val = (i 1).val; rw [e1, hi1]; omega

/-- The first weight window's one block is the whole 256×256 array. -/
theorem whole_block1_2 (c : Dev nD) (t : Fin cfg1.N) (k : Fin 256) (q : Fin 256) (i : S256x256.Idx)
    (hi0 : (i 0).val = k.val) (hi1 : (i 1).val = q.val) :
    (iblk1 V c 2 t : Vec Ideal S256x256 .f32) (ix2 k q) = (V c (Pipeline.arrRef spec1 2) : Cert.Spec.Mat 256 256) i := by
  obtain ⟨-, -, -, -, e0, e1, -⟩ := index1 t
  show (V c (Pipeline.arrRef spec1 2) : S256x256.Idx → EReal) (((cfg1.win 2).blk t).view.emb (ix2 k q)) = _
  refine congrArg (V c (Pipeline.arrRef spec1 2) : S256x256.Idx → EReal) (funext fun a => Fin.ext ?_)
  match a with
  | ⟨0, _⟩ => show win1_2.index t 0 * 256 + 1 * k.val = (i 0).val; rw [e0, hi0]; omega
  | ⟨1, _⟩ => show win1_2.index t 1 * 256 + 1 * q.val = (i 1).val; rw [e1, hi1]; omega

/-- The second weight window's one block is the whole 256×256 array. -/
theorem whole_block1_3 (c : Dev nD) (t : Fin cfg1.N) (k : Fin 256) (q : Fin 256) (i : S256x256.Idx)
    (hi0 : (i 0).val = k.val) (hi1 : (i 1).val = q.val) :
    (iblk1 V c 3 t : Vec Ideal S256x256 .f32) (ix2 k q) = (V c (Pipeline.arrRef spec1 3) : Cert.Spec.Mat 256 256) i := by
  obtain ⟨-, -, -, -, -, -, e0, e1, -⟩ := index1 t
  show (V c (Pipeline.arrRef spec1 3) : S256x256.Idx → EReal) (((cfg1.win 3).blk t).view.emb (ix2 k q)) = _
  refine congrArg (V c (Pipeline.arrRef spec1 3) : S256x256.Idx → EReal) (funext fun a => Fin.ext ?_)
  match a with
  | ⟨0, _⟩ => show win1_3.index t 0 * 256 + 1 * k.val = (i 0).val; rw [e0, hi0]; omega
  | ⟨1, _⟩ => show win1_3.index t 1 * 256 + 1 * q.val = (i 1).val; rw [e1, hi1]; omega

/-- The bias window's one block is the whole 1×256 row. -/
theorem whole_block1_4 (c : Dev nD) (t : Fin cfg1.N) (q : Fin 256) (i : S1x256.Idx)
    (hi0 : (i 0).val = 0) (hi1 : (i 1).val = q.val) :
    (iblk1 V c 4 t : Vec Ideal S1x256 .f32) (ix2 (0 : Fin 1) q) = (V c (Pipeline.arrRef spec1 4) : Cert.Spec.Mat 1 256) i := by
  obtain ⟨-, -, -, -, -, -, -, -, e0, e1, -⟩ := index1 t
  show (V c (Pipeline.arrRef spec1 4) : S1x256.Idx → EReal) (((cfg1.win 4).blk t).view.emb (ix2 (0 : Fin 1) q)) = _
  refine congrArg (V c (Pipeline.arrRef spec1 4) : S1x256.Idx → EReal) (funext fun a => Fin.ext ?_)
  match a with
  | ⟨0, _⟩ => show win1_4.index t 0 * 1 + 1 * (0 : Fin 1).val = (i 0).val; rw [e0, hi0]; rfl
  | ⟨1, _⟩ => show win1_4.index t 1 * 256 + 1 * q.val = (i 1).val; rw [e1, hi1]; omega

/-- What grid point t writes back is block t of the layer's dense part, clamped at zero, of the five arrays as the
    region finds them. -/
theorem flushed1_eq (c : Dev nD) (t : Fin cfg1.N) :
    (dat1 (F := Ideal) V c).flushed 5 t = ((cfg1.win 5).blk t).view.read (Elt Ideal)
      (Cert.Spec.denseRelu (N := 50000) (K := 256) (J := 256) (V c (Pipeline.arrRef spec1 0)) (V c (Pipeline.arrRef spec1 1))
        (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets1]
  simp only [View.ld_unit_zero (S := S5000x256) zero_offsets1, View.ld_unit_zero (S := S256x256) zero_offsets1,
    View.ld_unit_zero (S := S1x256) zero_offsets1]
  obtain ⟨-, -, -, -, -, -, -, -, -, -, e0, e1⟩ := index1 t
  funext j
  have hj0 : (j 0).val < 5000 := (j 0).isLt
  have hj1 : (j 1).val < 256 := (j 1).isLt
  have hj : (win1 5).xinj (grid1.coords t) j = ix2 (⟨(j 0).val, hj0⟩ : Fin 5000) (⟨(j 1).val, hj1⟩ : Fin 256) :=
    funext fun a => by
      match a with
      | ⟨0, _⟩ => rfl
      | ⟨1, _⟩ => rfl
  show k1_pay1 (F := Ideal) _ _ _ _ _ ((win1 5).xinj (grid1.coords t) j)
    = Cert.Spec.denseRelu (N := 50000) (K := 256) (J := 256) (V c (Pipeline.arrRef spec1 0)) (V c (Pipeline.arrRef spec1 1))
        (V c (Pipeline.arrRef spec1 2)) (V c (Pipeline.arrRef spec1 3)) (V c (Pipeline.arrRef spec1 4))
        (((cfg1.win 5).blk t).view.emb j)
  rw [hj]
  have c0 : ((((cfg1.win 5).blk t).view.emb j) 0).val = t.val * 5000 + (j 0).val := by
    show win1_5.index t 0 * 5000 + 1 * (j 0).val = _; rw [e0]; omega
  have c1 : ((((cfg1.win 5).blk t).view.emb j) 1).val = (j 1).val := by
    show win1_5.index t 1 * 256 + 1 * (j 1).val = _; rw [e1]; omega
  exact denseRelu_point1 _ _ _ _ _ _ _ _ _ _ _ _ _ (fun k => rows_block1_0 V c t _ k _ c0 rfl)
    (fun k => rows_block1_1 V c t _ k _ c0 rfl) (fun k => whole_block1_2 V c t k _ _ rfl c1)
    (fun k => whole_block1_3 V c t k _ _ rfl c1) (whole_block1_4 V c t _ _ rfl c1)

/-- An index of the output array is in grid point t's block iff each coordinate lies in the block's range on its axis. -/
theorem mem_block1 (t : Fin cfg1.N) (i : S50000x256.Idx) :
    i ∈ ((cfg1.win 5).blk t).view.set ↔ ∀ a : Fin 2, win1_5.index t a * S5000x256.size a ≤ (i a).val
      ∧ (i a).val < win1_5.index t a * S5000x256.size a + S5000x256.size a := by
  show i ∈ ((View.whole main_v40).slice (win1_5.rect t)).set ↔ _
  rw [View.set_slice_whole, Rect.mem_set_unit]
  exact Iff.rfl

/-- Row r of the output lies in the block of grid point r / 5000: the ten row blocks cover the array. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, -, -, e0, e1⟩ := index1 t
  refine ⟨t, flush1_5 t, ?_⟩
  rw [mem_block1]
  intro a
  match a with
  | ⟨0, _⟩ =>
    show win1_5.index t 0 * 5000 ≤ (i 0).val ∧ (i 0).val < win1_5.index t 0 * 5000 + 5000
    rw [e0, ht]; omega
  | ⟨1, _⟩ =>
    show win1_5.index t 1 * 256 ≤ (i 1).val ∧ (i 1).val < win1_5.index t 1 * 256 + 256
    rw [e1]; omega

/-- After the region the output array holds the layer's dense part, clamped at zero, of the five arrays as the region
    found them. -/
theorem final1 (c : Dev nD) :
    (dat1 (F := Ideal) V c).arrAt 5 cfg1.N
      = Cert.Spec.denseRelu (N := 50000) (K := 256) (J := 256) (V c (Pipeline.arrRef spec1 0)) (V c (Pipeline.arrRef spec1 1))
          (V c (Pipeline.arrRef spec1 2)) (V c (Pipeline.arrRef spec1 3)) (V c (Pipeline.arrRef spec1 4)) :=
  (dat1 V c).arrAt_eq_of_cover 5 _ (fun t _ => flushed1_eq V c t) cover1

end Cert.KernelIdeal.Regions
end
-- ==== Proof.Region2.lean ====
/-
  Region 2, from blocks to the array. The region multiplies a 50000×256 matrix by a 256×128 matrix, ten row blocks of 5000
  rows at a time: at each grid point it loads one row block of the left operand and the whole right operand, forms their
  product, and writes it back as the same row block of the output. Here: the product block at an index as a sum over the
  contracted coordinate; each input block's entry as an entry of its whole array; what a grid point writes back as a block of
  the whole product; the ten blocks cover the output; so the output array ends holding the whole product.
-/
import proofs.«153461_j996432413260_2_alg».proof.Proof.Gen.KernelIdeal.Frame
import proofs.«153461_j996432413260_2_alg».proof.Proof.Spec
import proofs.«153461_j996432413260_2_alg».proof.Proof.LibPlainDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- The product block at (p, q): the sum over the 256 contracted columns. -/
theorem proj_block_apply (x0 : Vec Ideal S5000x256 .f32) (x1 : Vec Ideal S256x128 .f32) (p : Fin 5000) (q : Fin 128) :
    k2_pay1 (F := Ideal) x0 x1 (ix2 p q) = ∑ k : Fin 256, x0 (ix2 p k) * x1 (ix2 k q) := by
  unfold k2_pay1
  simp only [shapeCast_self]
  exact Cert.LibPlainDot.matmul_zero_apply _ _ x0 x1 p q

/-- When row p of the left block is row (i 0) of A and column q of the right block is column (i 1) of W, the product
    block at (p, q) is (A·W)(i). -/
theorem proj_point (A : Cert.Spec.Mat 50000 256) (W : Cert.Spec.Mat 256 128) (x0 : Vec Ideal S5000x256 .f32)
    (x1 : Vec Ideal S256x128 .f32) (i : S50000x128.Idx) (p : Fin 5000) (q : Fin 128)
    (h0 : ∀ k : Fin 256, x0 (ix2 p k) = A (ix2 (i 0 : Fin 50000) k))
    (h1 : ∀ k : Fin 256, x1 (ix2 k q) = W (ix2 k (i 1 : Fin 128))) :
    k2_pay1 (F := Ideal) x0 x1 (ix2 p q) = Cert.Spec.proj A W i := by
  rw [proj_block_apply]
  exact Finset.sum_congr rfl fun k _ => by rw [h0, h1]

theorem zero_offsets : (![0, 0] : Fin 2 → Nat) = fun _ => 0 := funext fun a => by fin_cases a <;> rfl

/-- The three windows' block indices at grid point t: the row windows sit at block row t, the weight window at its one block. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- Row block t of the 50000×256 operand: its (p, k) entry is the operand's (5000 t + p, k) entry. -/
theorem rows_block2_0 (c : Dev nD) (t : Fin cfg2.N) (p : Fin 5000) (k : Fin 256) (i : S50000x256.Idx)
    (hi0 : (i 0).val = t.val * 5000 + p.val) (hi1 : (i 1).val = k.val) :
    (iblk2 V c 0 t : Vec Ideal S5000x256 .f32) (ix2 p k) = (V c (Pipeline.arrRef spec2 0) : Cert.Spec.Mat 50000 256) i := by
  obtain ⟨e0, e1, -⟩ := index2 t
  show (V c (Pipeline.arrRef spec2 0) : S50000x256.Idx → EReal) (((cfg2.win 0).blk t).view.emb (ix2 p k)) = _
  refine congrArg (V c (Pipeline.arrRef spec2 0) : S50000x256.Idx → EReal) (funext fun a => Fin.ext ?_)
  match a with
  | ⟨0, _⟩ => show win2_0.index t 0 * 5000 + 1 * p.val = (i 0).val; rw [e0, hi0]; omega
  | ⟨1, _⟩ => show win2_0.index t 1 * 256 + 1 * k.val = (i 1).val; rw [e1, hi1]; omega

/-- The weight window's one block is the whole 256×128 operand. -/
theorem whole_block2_1 (c : Dev nD) (t : Fin cfg2.N) (k : Fin 256) (q : Fin 128) (i : S256x128.Idx)
    (hi0 : (i 0).val = k.val) (hi1 : (i 1).val = q.val) :
    (iblk2 V c 1 t : Vec Ideal S256x128 .f32) (ix2 k q) = (V c (Pipeline.arrRef spec2 1) : Cert.Spec.Mat 256 128) i := by
  obtain ⟨-, -, e0, e1, -⟩ := index2 t
  show (V c (Pipeline.arrRef spec2 1) : S256x128.Idx → EReal) (((cfg2.win 1).blk t).view.emb (ix2 k q)) = _
  refine congrArg (V c (Pipeline.arrRef spec2 1) : S256x128.Idx → EReal) (funext fun a => Fin.ext ?_)
  match a with
  | ⟨0, _⟩ => show win2_1.index t 0 * 256 + 1 * k.val = (i 0).val; rw [e0, hi0]; omega
  | ⟨1, _⟩ => show win2_1.index t 1 * 128 + 1 * q.val = (i 1).val; rw [e1, hi1]; omega

/-- What grid point t writes back is block t of the product of the two operands as the region finds them. -/
theorem flushed2_eq (c : Dev nD) (t : Fin cfg2.N) :
    (dat2 (F := Ideal) V c).flushed 2 t = ((cfg2.win 2).blk t).view.read (Elt Ideal)
      (Cert.Spec.proj (N := 50000) (K := 256) (J := 128) (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S5000x256) zero_offsets, View.ld_unit_zero (S := S256x128) zero_offsets]
  obtain ⟨-, -, -, -, e0, e1⟩ := index2 t
  funext j
  have hj0 : (j 0).val < 5000 := (j 0).isLt
  have hj1 : (j 1).val < 128 := (j 1).isLt
  have hj : (win2 2).xinj (grid2.coords t) j = ix2 (⟨(j 0).val, hj0⟩ : Fin 5000) (⟨(j 1).val, hj1⟩ : Fin 128) :=
    funext fun a => by
      match a with
      | ⟨0, _⟩ => rfl
      | ⟨1, _⟩ => rfl
  show k2_pay1 (F := Ideal) _ _ ((win2 2).xinj (grid2.coords t) j)
    = Cert.Spec.proj (N := 50000) (K := 256) (J := 128) (V c (Pipeline.arrRef spec2 0)) (V c (Pipeline.arrRef spec2 1)) (((cfg2.win 2).blk t).view.emb j)
  rw [hj]
  have c0 : ((((cfg2.win 2).blk t).view.emb j) 0).val = t.val * 5000 + (j 0).val := by
    show win2_2.index t 0 * 5000 + 1 * (j 0).val = _; rw [e0]; omega
  have c1 : ((((cfg2.win 2).blk t).view.emb j) 1).val = (j 1).val := by
    show win2_2.index t 1 * 128 + 1 * (j 1).val = _; rw [e1]; omega
  exact proj_point _ _ _ _ _ _ _ (fun k => rows_block2_0 V c t _ k _ c0 rfl) (fun k => whole_block2_1 V c t k _ _ rfl c1)

/-- An index of the output array is in grid point t's block iff each coordinate lies in the block's range on its axis. -/
theorem mem_block2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v42).slice (win2_2.rect t)).set ↔ _
  rw [View.set_slice_whole, Rect.mem_set_unit]
  exact Iff.rfl

/-- Row r of the output lies in the block of grid point r / 5000: the ten row blocks cover the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, e0, e1⟩ := index2 t
  refine ⟨t, flush2_2 t, ?_⟩
  rw [mem_block2]
  intro a
  match a with
  | ⟨0, _⟩ =>
    show win2_2.index t 0 * 5000 ≤ (i 0).val ∧ (i 0).val < win2_2.index t 0 * 5000 + 5000
    rw [e0, ht]; omega
  | ⟨1, _⟩ =>
    show win2_2.index t 1 * 128 ≤ (i 1).val ∧ (i 1).val < win2_2.index t 1 * 128 + 128
    rw [e1]; omega

/-- After the region the output array holds the product of the two operands as the region found them. -/
theorem final2 (c : Dev nD) :
    (dat2 (F := Ideal) V c).arrAt 2 cfg2.N
      = Cert.Spec.proj (N := 50000) (K := 256) (J := 128) (V c (Pipeline.arrRef spec2 0)) (V c (Pipeline.arrRef spec2 1)) :=
  (dat2 V c).arrAt_eq_of_cover 2 _ (fun t _ => flushed2_eq V c t) cover2

end Cert.KernelIdeal.Regions
end
-- ==== Proof.Region3.lean ====
/-
  Region 3, from blocks to the array. The last layer's dense part: at each of ten grid points the region loads one block of
  5000 rows of the 50000×256 features, the same rows of the already averaged 50000×128 projection, the whole 256×128 weights
  and the 1×128 bias, and writes back, as the same row block of the output, the features' block times the weights, plus the
  projection's block, plus the bias row. Here: that block at an index; each input block's entry as an entry of its whole
  array; what a grid point writes back as a block of the whole-array function; the ten blocks cover the output; so the
  output array ends holding that function of the four arrays.
-/
import proofs.«153461_j996432413260_2_alg».proof.Proof.Gen.KernelIdeal.Frame
import proofs.«153461_j996432413260_2_alg».proof.Proof.Spec
import proofs.«153461_j996432413260_2_alg».proof.Proof.LibPlainDot
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- The last layer's block at (p, q): the product's sum over the 256 contracted columns, plus the already averaged
    block's entry, plus the bias of column q. -/
theorem denseProj_block_apply (x0 : Vec Ideal S5000x256 .f32) (x2 : Vec Ideal S256x128 .f32) (x1 : Vec Ideal S5000x128 .f32)
    (x3 : Vec Ideal S1x128 .f32) (p : Fin 5000) (q : Fin 128) :
    k3_pay1 (F := Ideal) x0 x2 x1 x3 (ix2 p q)
      = (∑ k : Fin 256, x0 (ix2 p k) * x2 (ix2 k q) + x1 (ix2 p q)) + x3 (ix2 (0 : Fin 1) q) := by
  unfold k3_pay1
  simp only [shapeCast_self, addf_apply]
  rw [broadcastTo_1b_ab_apply]
  exact congrArg (fun s => s + x1 (ix2 p q) + x3 (ix2 (0 : Fin 1) q)) (Cert.LibPlainDot.matmul_zero_apply _ _ x0 x2 p q)

/-- When the blocks' entries that (p, q) reads are the whole arrays' entries that index i reads, the block at (p, q) is
    the whole-array function at i. -/
theorem denseProj_point (A : Cert.Spec.Mat 50000 256) (P : Cert.Spec.Mat 50000 128) (W : Cert.Spec.Mat 256 128)
    (B : Cert.Spec.Mat 1 128) (x0 : Vec Ideal S5000x256 .f32) (x2 : Vec Ideal S256x128 .f32) (x1 : Vec Ideal S5000x128 .f32)
    (x3 : Vec Ideal S1x128 .f32) (i : S50000x128.Idx) (p : Fin 5000) (q : Fin 128)
    (h0 : ∀ k : Fin 256, x0 (ix2 p k) = A (ix2 (i 0 : Fin 50000) k))
    (h2 : ∀ k : Fin 256, x2 (ix2 k q) = W (ix2 k (i 1 : Fin 128)))
    (h1 : x1 (ix2 p q) = P i)
    (h3 : x3 (ix2 (0 : Fin 1) q) = B (ix2 (0 : Fin 1) (i 1 : Fin 128))) :
    k3_pay1 (F := Ideal) x0 x2 x1 x3 (ix2 p q) = Cert.Spec.denseProj A P W B i := by
  have hs : ∑ k : Fin 256, x0 (ix2 p k) * x2 (ix2 k q) = ∑ k : Fin 256, A (ix2 (i 0 : Fin 50000) k) * W (ix2 k (i 1 : Fin 128)) :=
    Finset.sum_congr rfl fun k _ => by rw [h0, h2]
  rw [denseProj_block_apply, h1, h3, hs]
  rfl

theorem zero_offsets3 : (![0, 0] : Fin 2 → Nat) = fun _ => 0 := funext fun a => by fin_cases a <;> rfl

/-- The five windows' block indices at grid point t: the three row windows sit at block row t, the weights and the bias
    at their one block. -/
theorem index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- Row block t of the 50000×256 features: its (p, k) entry is the array's (5000 t + p, k) entry. -/
theorem rows_block3_0 (c : Dev nD) (t : Fin cfg3.N) (p : Fin 5000) (k : Fin 256) (i : S50000x256.Idx)
    (hi0 : (i 0).val = t.val * 5000 + p.val) (hi1 : (i 1).val = k.val) :
    (iblk3 V c 0 t : Vec Ideal S5000x256 .f32) (ix2 p k) = (V c (Pipeline.arrRef spec3 0) : Cert.Spec.Mat 50000 256) i := by
  obtain ⟨e0, e1, -⟩ := index3 t
  show (V c (Pipeline.arrRef spec3 0) : S50000x256.Idx → EReal) (((cfg3.win 0).blk t).view.emb (ix2 p k)) = _
  refine congrArg (V c (Pipeline.arrRef spec3 0) : S50000x256.Idx → EReal) (funext fun a => Fin.ext ?_)
  match a with
  | ⟨0, _⟩ => show win3_0.index t 0 * 5000 + 1 * p.val = (i 0).val; rw [e0, hi0]; omega
  | ⟨1, _⟩ => show win3_0.index t 1 * 256 + 1 * k.val = (i 1).val; rw [e1, hi1]; omega

/-- Row block t of the 50000×128 projection: its (p, q) entry is the array's (5000 t + p, q) entry. -/
theorem rows_block3_1 (c : Dev nD) (t : Fin cfg3.N) (p : Fin 5000) (q : Fin 128) (i : S50000x128.Idx)
    (hi0 : (i 0).val = t.val * 5000 + p.val) (hi1 : (i 1).val = q.val) :
    (iblk3 V c 1 t : Vec Ideal S5000x128 .f32) (ix2 p q) = (V c (Pipeline.arrRef spec3 1) : Cert.Spec.Mat 50000 128) i := by
  obtain ⟨-, -, e0, e1, -⟩ := index3 t
  show (V c (Pipeline.arrRef spec3 1) : S50000x128.Idx → EReal) (((cfg3.win 1).blk t).view.emb (ix2 p q)) = _
  refine congrArg (V c (Pipeline.arrRef spec3 1) : S50000x128.Idx → EReal) (funext fun a => Fin.ext ?_)
  match a with
  | ⟨0, _⟩ => show win3_1.index t 0 * 5000 + 1 * p.val = (i 0).val; rw [e0, hi0]; omega
  | ⟨1, _⟩ => show win3_1.index t 1 * 128 + 1 * q.val = (i 1).val; rw [e1, hi1]; omega

/-- The weight window's one block is the whole 256×128 array. -/
theorem whole_block3_2 (c : Dev nD) (t : Fin cfg3.N) (k : Fin 256) (q : Fin 128) (i : S256x128.Idx)
    (hi0 : (i 0).val = k.val) (hi1 : (i 1).val = q.val) :
    (iblk3 V c 2 t : Vec Ideal S256x128 .f32) (ix2 k q) = (V c (Pipeline.arrRef spec3 2) : Cert.Spec.Mat 256 128) i := by
  obtain ⟨-, -, -, -, e0, e1, -⟩ := index3 t
  show (V c (Pipeline.arrRef spec3 2) : S256x128.Idx → EReal) (((cfg3.win 2).blk t).view.emb (ix2 k q)) = _
  refine congrArg (V c (Pipeline.arrRef spec3 2) : S256x128.Idx → EReal) (funext fun a => Fin.ext ?_)
  match a with
  | ⟨0, _⟩ => show win3_2.index t 0 * 256 + 1 * k.val = (i 0).val; rw [e0, hi0]; omega
  | ⟨1, _⟩ => show win3_2.index t 1 * 128 + 1 * q.val = (i 1).val; rw [e1, hi1]; omega

/-- The bias window's one block is the whole 1×128 row. -/
theorem whole_block3_3 (c : Dev nD) (t : Fin cfg3.N) (q : Fin 128) (i : S1x128.Idx)
    (hi0 : (i 0).val = 0) (hi1 : (i 1).val = q.val) :
    (iblk3 V c 3 t : Vec Ideal S1x128 .f32) (ix2 (0 : Fin 1) q) = (V c (Pipeline.arrRef spec3 3) : Cert.Spec.Mat 1 128) i := by
  obtain ⟨-, -, -, -, -, -, e0, e1, -⟩ := index3 t
  show (V c (Pipeline.arrRef spec3 3) : S1x128.Idx → EReal) (((cfg3.win 3).blk t).view.emb (ix2 (0 : Fin 1) q)) = _
  refine congrArg (V c (Pipeline.arrRef spec3 3) : S1x128.Idx → EReal) (funext fun a => Fin.ext ?_)
  match a with
  | ⟨0, _⟩ => show win3_3.index t 0 * 1 + 1 * (0 : Fin 1).val = (i 0).val; rw [e0, hi0]; rfl
  | ⟨1, _⟩ => show win3_3.index t 1 * 128 + 1 * q.val = (i 1).val; rw [e1, hi1]; omega

/-- What grid point t writes back is block t of the last layer's dense part of the four arrays as the region finds them. -/
theorem flushed3_eq (c : Dev nD) (t : Fin cfg3.N) :
    (dat3 (F := Ideal) V c).flushed 4 t = ((cfg3.win 4).blk t).view.read (Elt Ideal)
      (Cert.Spec.denseProj (N := 50000) (K := 256) (J := 128) (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out3_4
  rw [View.canon_unit_zero zero_offsets3]
  simp only [View.ld_unit_zero (S := S5000x256) zero_offsets3, View.ld_unit_zero (S := S256x128) zero_offsets3,
    View.ld_unit_zero (S := S5000x128) zero_offsets3, View.ld_unit_zero (S := S1x128) zero_offsets3]
  obtain ⟨-, -, -, -, -, -, -, -, e0, e1⟩ := index3 t
  funext j
  have hj0 : (j 0).val < 5000 := (j 0).isLt
  have hj1 : (j 1).val < 128 := (j 1).isLt
  have hj : (win3 4).xinj (grid3.coords t) j = ix2 (⟨(j 0).val, hj0⟩ : Fin 5000) (⟨(j 1).val, hj1⟩ : Fin 128) :=
    funext fun a => by
      match a with
      | ⟨0, _⟩ => rfl
      | ⟨1, _⟩ => rfl
  show k3_pay1 (F := Ideal) _ _ _ _ ((win3 4).xinj (grid3.coords t) j)
    = Cert.Spec.denseProj (N := 50000) (K := 256) (J := 128) (V c (Pipeline.arrRef spec3 0)) (V c (Pipeline.arrRef spec3 1))
        (V c (Pipeline.arrRef spec3 2)) (V c (Pipeline.arrRef spec3 3)) (((cfg3.win 4).blk t).view.emb j)
  rw [hj]
  have c0 : ((((cfg3.win 4).blk t).view.emb j) 0).val = t.val * 5000 + (j 0).val := by
    show win3_4.index t 0 * 5000 + 1 * (j 0).val = _; rw [e0]; omega
  have c1 : ((((cfg3.win 4).blk t).view.emb j) 1).val = (j 1).val := by
    show win3_4.index t 1 * 128 + 1 * (j 1).val = _; rw [e1]; omega
  exact denseProj_point _ _ _ _ _ _ _ _ _ _ _ (fun k => rows_block3_0 V c t _ k _ c0 rfl)
    (fun k => whole_block3_2 V c t k _ _ rfl c1) (rows_block3_1 V c t _ _ _ c0 c1) (whole_block3_3 V c t _ _ rfl c1)

/-- An index of the output array is in grid point t's block iff each coordinate lies in the block's range on its axis. -/
theorem mem_block3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v57).slice (win3_4.rect t)).set ↔ _
  rw [View.set_slice_whole, Rect.mem_set_unit]
  exact Iff.rfl

/-- Row r of the output lies in the block of grid point r / 5000: the ten row blocks cover the array. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, -, e0, e1⟩ := index3 t
  refine ⟨t, flush3_4 t, ?_⟩
  rw [mem_block3]
  intro a
  match a with
  | ⟨0, _⟩ =>
    show win3_4.index t 0 * 5000 ≤ (i 0).val ∧ (i 0).val < win3_4.index t 0 * 5000 + 5000
    rw [e0, ht]; omega
  | ⟨1, _⟩ =>
    show win3_4.index t 1 * 128 ≤ (i 1).val ∧ (i 1).val < win3_4.index t 1 * 128 + 128
    rw [e1]; omega

/-- After the region the output array holds the last layer's dense part of the four arrays as the region found them. -/
theorem final3 (c : Dev nD) :
    (dat3 (F := Ideal) V c).arrAt 4 cfg3.N
      = Cert.Spec.denseProj (N := 50000) (K := 256) (J := 128) (V c (Pipeline.arrRef spec3 0)) (V c (Pipeline.arrRef spec3 1))
          (V c (Pipeline.arrRef spec3 2)) (V c (Pipeline.arrRef spec3 3)) :=
  (dat3 V c).arrAt_eq_of_cover 4 _ (fun t _ => flushed3_eq V c t) cover3

end Cert.KernelIdeal.Regions
end
-- ==== Proof.KerValue.lean ====
/-
  The idealized kernel's result, as the specification's network.

  Region by region: the array a region writes is the specification's dense function of the arrays it reads (the four
  region theorems), and the arrays it reads are what the host operations before it computed (the boundary facts). Put
  together, the first region's output is the first layer, the second region's the second layer, the third region's the
  second layer's output times the last neighbour weights, and the last region adds the self term, the neighbours' mean of
  those projected rows and the bias: the network that projects before it averages.
-/
import proofs.«153461_j996432413260_2_alg».proof.Proof.KerW7
import proofs.«153461_j996432413260_2_alg».proof.Proof.KerSpec
import proofs.«153461_j996432413260_2_alg».proof.Proof.Region0
import proofs.«153461_j996432413260_2_alg».proof.Proof.Region1
import proofs.«153461_j996432413260_2_alg».proof.Proof.Region2
import proofs.«153461_j996432413260_2_alg».proof.Proof.Region3

set_option maxRecDepth 16384

noncomputable section

namespace Cert.KernelIdeal.Walk

open Cert.KernelIdeal Cert.KernelIdeal.Gen
open Idealize.ShloMosaic Idealize.ShloMosaic.TcCoe Idealize.ShloMosaic.Tactic Idealize.SL.Sem Idealize.ShloMosaic.StableHlo

open Cert.KernelIdeal.Regions

variable (m : (ℓ : Loc nD τ sig) → Buf (Elt Ideal) ℓ) (ρ : Dev nD → PrngReg) (c : Dev nD)

/-- The first region writes the first layer's output. -/
theorem out0 : W2 m ρ c (Proc.devRef .tc main_v24)
    = Cert.Spec.denseRelu (N := 50000) (K := 256) (J := 256) (launched m c main_arg0) (mean256 (launched m c main_arg0) (launched m c main_arg10) (launched m c main_arg11))
        (trW (launched m c main_arg1)) (trW (launched m c main_arg2)) (rowB (launched m c main_arg3)) := by
  refine (W2_arr m ρ c 5).trans ((final0 (V1 m ρ) c).trans ?_)
  show Cert.Spec.denseRelu (N := 50000) (K := 256) (J := 256) (W1 m ρ c (Proc.devRef .tc main_arg0)) (W1 m ρ c (Proc.devRef .tc main_v20)) (W1 m ρ c (Proc.devRef .tc main_v21)) (W1 m ρ c (Proc.devRef .tc main_v22)) (W1 m ρ c (Proc.devRef .tc main_v23)) = _
  rw [at1_arg0, at1_v20, at1_v21, at1_v22, at1_v23]

/-- The second region writes the second layer's output, a function of the first region's. -/
theorem out1 : W4 m ρ c (Proc.devRef .tc main_v40)
    = Cert.Spec.denseRelu (N := 50000) (K := 256) (J := 256) (W2 m ρ c (Proc.devRef .tc main_v24)) (mean256 (W2 m ρ c (Proc.devRef .tc main_v24)) (launched m c main_arg10) (launched m c main_arg11))
        (trW (launched m c main_arg4)) (trW (launched m c main_arg5)) (rowB (launched m c main_arg6)) := by
  refine (W4_arr m ρ c 5).trans ((final1 (V3 m ρ) c).trans ?_)
  show Cert.Spec.denseRelu (N := 50000) (K := 256) (J := 256) (W3 m ρ c (Proc.devRef .tc main_v24)) (W3 m ρ c (Proc.devRef .tc main_v36)) (W3 m ρ c (Proc.devRef .tc main_v37)) (W3 m ρ c (Proc.devRef .tc main_v38)) (W3 m ρ c (Proc.devRef .tc main_v39)) = _
  rw [at3_v24, at3_v36, at3_v37, at3_v38, at3_v39]

/-- The third region projects the second layer's output by the last neighbour weights. -/
theorem out2 : W6 m ρ c (Proc.devRef .tc main_v42)
    = Cert.Spec.proj (N := 50000) (K := 256) (J := 128) (W4 m ρ c (Proc.devRef .tc main_v40)) (trW2 (launched m c main_arg8)) := by
  refine (W6_arr m ρ c 2).trans ((final2 (V5 m ρ) c).trans ?_)
  show Cert.Spec.proj (N := 50000) (K := 256) (J := 128) (W5 m ρ c (Proc.devRef .tc main_v40)) (W5 m ρ c (Proc.devRef .tc main_v41)) = _
  rw [at5_v40, at5_v41]

/-- The last region adds the self term, the mean of the projected rows and the bias. -/
theorem out3 : W8 m ρ c (Proc.devRef .tc main_v57)
    = Cert.Spec.denseProj (N := 50000) (K := 256) (J := 128) (W4 m ρ c (Proc.devRef .tc main_v40)) (mean128 (W6 m ρ c (Proc.devRef .tc main_v42)) (launched m c main_arg10) (launched m c main_arg11))
        (trW2 (launched m c main_arg7)) (rowB2 (launched m c main_arg9)) := by
  refine (W8_arr m ρ c 4).trans ((final3 (V7 m ρ) c).trans ?_)
  show Cert.Spec.denseProj (N := 50000) (K := 256) (J := 128) (W7 m ρ c (Proc.devRef .tc main_v40)) (W7 m ρ c (Proc.devRef .tc main_v54)) (W7 m ρ c (Proc.devRef .tc main_v55)) (W7 m ρ c (Proc.devRef .tc main_v56)) = _
  rw [at7_v40, at7_v54, at7_v55, at7_v56]

/-- THE KERNEL'S RESULT is the network that averages by a reciprocal and, in its last layer, projects before it averages,
    on the graph the two integer arguments describe. -/
theorem ker_value : W8 m ρ c (Proc.devRef .tc main_v57)
    = Cert.Spec.kerNet (rowOf (launched m c main_arg10)) (landOf (launched m c main_arg11)) (degOf (launched m c main_arg11)) (launched m c main_arg0)
        (launched m c main_arg1) (launched m c main_arg2) (launched m c main_arg3) (launched m c main_arg4) (launched m c main_arg5) (launched m c main_arg6) (launched m c main_arg7) (launched m c main_arg8) (launched m c main_arg9) := by
  rw [out3, out2, out1, out0]
  simp only [mean256_eq, mean128_eq, trW_eq, trW2_eq, rowB_eq, rowB2_eq]
  rfl

end Cert.KernelIdeal.Walk

end
-- ==== Proof.RefValue.lean ====
/-
  The reference program's result, as the mathematics of Spec.

  The reference runs three layers. Each one forms the neighbours' mean of the current features (gather the rows the edges
  read, add them into a zero array at the rows the edges land on, divide every row by its clamped in-degree) and then
  h·Wsᵀ + mean·Wnᵀ + b, under max(·, 0) except in the last layer. Its composed result term repeats the earlier layers'
  terms wherever a later layer reads them; here the term is first folded into one application per layer, and each layer is
  then read as Spec's denseRelu / dense of Spec's meanDiv, which makes the whole result Spec's refNet.

  The graph enters through three arrays computed from the two edge lists alone: the row each edge reads (a negative
  number wrapped around once by N, then clamped), the row each edge lands on, and each node's in-degree clamped below by one.
-/
import proofs.«153461_j996432413260_2_alg».proof.Proof.OpsRead
import proofs.«153461_j996432413260_2_alg».proof.Proof.Gen.ReferenceIdeal.Run

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.ValueIdx

/-! ## The graph's three arrays -/

/-- The row number each edge reads, as a column: the source list with a negative entry increased by N. -/
def gidx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The row number each edge lands on, as a column: the destination list. -/
def sidx (dst : IVec S800000 32) : IVec S800000x1 32 :=
  broadcastInDim S800000x1 ![0] bcast_S800000_S800000x1_0 dst

/-- Each node's in-degree (a one added per edge landing on it, from zero) clamped below by one. -/
def Dv (dst : IVec S800000 32) : FVec Ideal S50000 .f32 :=
  maximumf
    (Host.scatterAdd scatter_S50000_S800000x1_S800000_n_0_0_1
      (broadcastInDim S50000 ![] bcast_S_S50000 (constant (F := Ideal) S_ .f32 0x00000000#32)) (sidx dst)
      (broadcastInDim S800000 ![] bcast_S_S800000 (constant (F := Ideal) S_ .f32 0x3F800000#32)))
    (broadcastInDim S50000 ![] bcast_S_S50000 (constant (F := Ideal) S_ .f32 0x3F800000#32))

/-- The node each edge reads. -/
abbrev rowOf (src : IVec S800000 32) : Fin 800000 → Fin 50000 := RowGather.row (N := 50000) (by decide) (gidx src)

/-- The edges landing on each node. -/
abbrev landOf (dst : IVec S800000 32) : Fin 50000 → Finset (Fin 800000) :=
  fun n => Finset.univ.filter fun e : Fin 800000 => ((sidx dst) (ix2 e (0 : Fin 1))).toInt = (n.val : Int)

/-- Each node's clamped in-degree. -/
abbrev degOf (dst : IVec S800000 32) : Fin 50000 → EReal := fun n => Dv dst (ix1 n)

/-! ## One layer, in the program's operations -/

/-- The neighbours' mean of h as the program writes it. -/
def meanT (src dst : IVec S800000 32) (h : FVec Ideal S50000x256 .f32) : FVec Ideal S50000x256 .f32 :=
  Host.divf
    (Host.scatterAdd scatter_S50000x256_S800000x1_S800000x256_1_0_0_1
      (broadcastInDim S50000x256 ![] bcast_S_S50000x256 (constant (F := Ideal) S_ .f32 0x00000000#32)) (sidx dst)
      (Host.gather gather_S50000x256_S800000x1_S800000x256_1_0_n_n_0_1_1256 h (gidx src)))
    (broadcastInDim S50000x256 ![0, 1] bcast_S50000x1_S50000x256_0_1
      (broadcastInDim S50000x1 ![0] bcast_S50000_S50000x1_0 (Dv dst)))

/-- A layer with 256 output columns, under max(·, 0), as the program writes it. -/
def layerT (src dst : IVec S800000 32) (h : FVec Ideal S50000x256 .f32) (Ws Wn : FVec Ideal S256x256 .f32)
    (b : FVec Ideal S256 .f32) : FVec Ideal S50000x256 .f32 :=
  maximumf
    (addf
      (addf
        (Host.dotGeneral dot_S50000x256_S256x256_S50000x256_1_0_0_1_n_n none h
          (transpose S256x256 [1, 0] Ws transposes_S256x256_S256x256_1_0))
        (Host.dotGeneral dot_S50000x256_S256x256_S50000x256_1_0_0_1_n_n none (meanT src dst h)
          (transpose S256x256 [1, 0] Wn transposes_S256x256_S256x256_1_0)))
      (broadcastInDim S50000x256 ![0, 1] bcast_S1x256_S50000x256_0_1 (broadcastInDim S1x256 ![1] bcast_S256_S1x256_1 b)))
    (broadcastInDim S50000x256 ![] bcast_S_S50000x256 (constant (F := Ideal) S_ .f32 0x00000000#32))

/-- The last layer, with 128 output columns and no max, as the program writes it. -/
def lastT (src dst : IVec S800000 32) (h : FVec Ideal S50000x256 .f32) (Ws Wn : FVec Ideal S128x256 .f32)
    (b : FVec Ideal S128 .f32) : FVec Ideal S50000x128 .f32 :=
  addf
    (addf
      (Host.dotGeneral dot_S50000x256_S256x128_S50000x128_1_0_0_1_n_n none h
        (transpose S256x128 [1, 0] Ws transposes_S128x256_S256x128_1_0))
      (Host.dotGeneral dot_S50000x256_S256x128_S50000x128_1_0_0_1_n_n none (meanT src dst h)
        (transpose S256x128 [1, 0] Wn transposes_S128x256_S256x128_1_0)))
    (broadcastInDim S50000x128 ![0, 1] bcast_S1x128_S50000x128_0_1 (broadcastInDim S1x128 ![1] bcast_S128_S1x128_1 b))

/-! ## Each layer as Spec's -/

/-- The program's neighbours' mean is Spec's mean by a quotient. -/
theorem meanT_eq (src dst : IVec S800000 32) (h : FVec Ideal S50000x256 .f32) :
    meanT src dst h = Cert.Spec.meanDiv (rowOf src) (landOf dst) (degOf dst) h :=
  Cert.OpsRead.meanDiv_read _ _ _ _ _ _ h (sidx dst) (gidx src) (Dv dst)

/-- A 256-column layer is Spec's dense part under max(·, 0), of h and its neighbours' mean. -/
theorem layerT_eq (src dst : IVec S800000 32) (h : FVec Ideal S50000x256 .f32) (Ws Wn : FVec Ideal S256x256 .f32)
    (b : FVec Ideal S256 .f32) :
    layerT src dst h Ws Wn b
      = Cert.Spec.denseRelu h (Cert.Spec.meanDiv (rowOf src) (landOf dst) (degOf dst) h) (Cert.Spec.tr Ws) (Cert.Spec.tr Wn)
          (Cert.Spec.rowvec b) := by
  unfold layerT
  rw [Cert.OpsRead.transpose_eq_tr, Cert.OpsRead.transpose_eq_tr, meanT_eq]
  exact Cert.OpsRead.denseRelu_read _ _ _ _ h _ _ _ b

/-- The last layer is Spec's dense part, of h and its neighbours' mean. -/
theorem lastT_eq (src dst : IVec S800000 32) (h : FVec Ideal S50000x256 .f32) (Ws Wn : FVec Ideal S128x256 .f32)
    (b : FVec Ideal S128 .f32) :
    lastT src dst h Ws Wn b
      = Cert.Spec.dense h (Cert.Spec.meanDiv (rowOf src) (landOf dst) (degOf dst) h) (Cert.Spec.tr Ws) (Cert.Spec.tr Wn)
          (Cert.Spec.rowvec b) := by
  unfold lastT
  rw [Cert.OpsRead.transpose_eq_tr, Cert.OpsRead.transpose_eq_tr, meanT_eq]
  exact Cert.OpsRead.dense_read _ _ _ h _ _ _ b

/-! ## The composed result, layer by layer -/

set_option maxRecDepth 8192 in
/-- The program's composed result term is three applications of the layer terms above: the repeated sub-terms of the
    composed term are the earlier layers' results, read again by the later layers. -/
theorem res_fold (m : (ℓ : Loc nD τ sig) → Buf (Elt Ideal) ℓ) (c : Dev nD) :
    res_main_v82 (F := Ideal) m c
      = lastT (m ((c.tc : Thread nD τ).loc main_arg10)) (m ((c.tc : Thread nD τ).loc main_arg11))
          (layerT (m ((c.tc : Thread nD τ).loc main_arg10)) (m ((c.tc : Thread nD τ).loc main_arg11))
            (layerT (m ((c.tc : Thread nD τ).loc main_arg10)) (m ((c.tc : Thread nD τ).loc main_arg11))
              (m ((c.tc : Thread nD τ).loc main_arg0))
              (m ((c.tc : Thread nD τ).loc main_arg1)) (m ((c.tc : Thread nD τ).loc main_arg2))
              (m ((c.tc : Thread nD τ).loc main_arg3)))
            (m ((c.tc : Thread nD τ).loc main_arg4)) (m ((c.tc : Thread nD τ).loc main_arg5))
            (m ((c.tc : Thread nD τ).loc main_arg6)))
          (m ((c.tc : Thread nD τ).loc main_arg7)) (m ((c.tc : Thread nD τ).loc main_arg8))
          (m ((c.tc : Thread nD τ).loc main_arg9)) := by
  unfold res_main_v82 lastT layerT meanT Dv sidx gidx
  rfl

/-- THE REFERENCE'S RESULT is Spec's three-layer network with the mean by a quotient, on the graph the two edge lists
    give and the program's arguments as features, weights and biases. -/
theorem ref_value (m : (ℓ : Loc nD τ sig) → Buf (Elt Ideal) ℓ) (c : Dev nD) :
    res_main_v82 (F := Ideal) m c
      = Cert.Spec.refNet
          (RowGather.row (N := 50000) (by decide) (gidx (m ((c.tc : Thread nD τ).loc main_arg10))))
          (fun n : Fin 50000 => Finset.univ.filter fun e : Fin 800000 =>
            ((sidx (m ((c.tc : Thread nD τ).loc main_arg11))) (ix2 e (0 : Fin 1))).toInt = (n.val : Int))
          (fun n : Fin 50000 => Dv (m ((c.tc : Thread nD τ).loc main_arg11)) (ix1 n))
          (m ((c.tc : Thread nD τ).loc main_arg0))
          (m ((c.tc : Thread nD τ).loc main_arg1)) (m ((c.tc : Thread nD τ).loc main_arg2))
          (m ((c.tc : Thread nD τ).loc main_arg3))
          (m ((c.tc : Thread nD τ).loc main_arg4)) (m ((c.tc : Thread nD τ).loc main_arg5))
          (m ((c.tc : Thread nD τ).loc main_arg6))
          (m ((c.tc : Thread nD τ).loc main_arg7)) (m ((c.tc : Thread nD τ).loc main_arg8))
          (m ((c.tc : Thread nD τ).loc main_arg9)) := by
  rw [res_fold, lastT_eq, layerT_eq, layerT_eq]
  rfl

end Cert.ReferenceIdeal.RefValue

end
-- ==== Proof.Bridge.lean ====
/-
  The two programs compute the graph's arrays by the same operations: the row each edge reads (a negative source
  wrapped once by the node count), the row each edge lands on, and every node's in-degree clamped below by one. So the
  arrays each side's network is stated over are the same arrays.
-/
import proofs.«153461_j996432413260_2_alg».proof.Proof.RefValue
import proofs.«153461_j996432413260_2_alg».proof.Proof.KerSpec

noncomputable section

namespace Cert.Bridge

open Idealize.ShloMosaic

/-- Both programs wrap and lay out the edge sources alike. -/
theorem gidx_eq (src : IVec ⟨1, ![800000]⟩ 32) :
    Cert.ReferenceIdeal.RefValue.gidx src = Cert.KernelIdeal.Walk.gidx src := rfl

/-- Both programs lay out the edge destinations alike. -/
theorem sidx_eq (dst : IVec ⟨1, ![800000]⟩ 32) :
    Cert.ReferenceIdeal.RefValue.sidx dst = Cert.KernelIdeal.Walk.sidx dst := rfl

/-- Both programs count and clamp the in-degrees alike. -/
theorem Dv_eq (dst : IVec ⟨1, ![800000]⟩ 32) :
    Cert.ReferenceIdeal.RefValue.Dv dst = Cert.KernelIdeal.Walk.degClamp dst := rfl

/-- Hence the node each edge reads … -/
theorem rowOf_eq (src : IVec ⟨1, ![800000]⟩ 32) :
    Cert.ReferenceIdeal.RefValue.rowOf src = Cert.KernelIdeal.Walk.rowOf src := rfl

/-- … the edges landing on each node … -/
theorem landOf_eq (dst : IVec ⟨1, ![800000]⟩ 32) :
    Cert.ReferenceIdeal.RefValue.landOf dst = Cert.KernelIdeal.Walk.landOf dst := rfl

/-- … and each node's clamped in-degree are the same on both sides. -/
theorem degOf_eq (dst : IVec ⟨1, ![800000]⟩ 32) :
    Cert.ReferenceIdeal.RefValue.degOf dst = Cert.KernelIdeal.Walk.degOf dst := rfl

end Cert.Bridge

end
-- ==== Proof.Finite.lean ====
/-
  What the precondition says: every float input is an array of real numbers.

  The precondition is the conjunction, over the ten float arguments, of "every entry x has |x| < +∞", each computed as
  an `and` over the whole array of the entrywise comparison of max(x, −x) with the infinity pattern. On the extended
  reals max(x, −x) < +∞ excludes exactly +∞ and −∞, so such an x is a real number.
-/
import proofs.«153461_j996432413260_2_alg».proof.Pre_finite_inputs
import proofs.«153461_j996432413260_2_alg».proof.Proof.MeanLaw
import Idealize.ShloMosaic.Lib.ReduceAll
import Idealize.ShloMosaic.Lib.Affine
import Idealize.ShloMosaic.Lib.ValueIdx
import Idealize.ShloMosaic.Lib.Pipeline.Value
import Idealize.ShloMosaic.PureOps.Ideal

noncomputable section

namespace Cert.Finite

open Idealize.ShloMosaic Idealize.ShloMosaic.ValueIdx Cert.Spec

/-- The f32 pattern of +∞ is the extended reals' top. -/
theorem ofBits_inf : Ideal.ofBits .f32 0x7F800000#32 = ⊤ := by simp [Ideal.ofBits, Ideal.ieee]

/-- An extended real whose absolute value is below +∞ is a real number. -/
theorem isReal_of_abs_lt {x : EReal} (h : Ideal.cmp .olt (max x (-x)) (Ideal.ofBits .f32 0x7F800000#32) = 1#1) : IsReal x := by
  rw [ofBits_inf] at h
  have hlt : max x (-x) < ⊤ := by
    unfold Ideal.cmp at h
    by_contra hn
    simp [hn] at h
  induction x using EReal.rec with
  | bot => simp at hlt
  | coe r => exact ⟨r, rfl⟩
  | top => simp at hlt

instance : Subsingleton (⟨0, ![]⟩ : Shape).Idx := ⟨fun _ _ => funext fun d => d.elim0⟩

/-- One conjunct of the precondition: if the `and` over the whole array of "|x| < +∞" is true, every entry is real. -/
theorem real_of_all_finite {s : Shape} {axes : List (Fin s.rank)} (bc : (⟨0, ![]⟩ : Shape).BroadcastsInDim s ![])
    (rt : s.ReducesTo axes ⟨0, ![]⟩) (hu : 0 < (⟨0, ![]⟩ : Shape).numel) (x : FVec Ideal s .f32)
    (h : Host.reduce IntOp.andi (cmpf .olt (Host.absf x) (broadcastInDim s ![] bc (constant (F := Ideal) ⟨0, ![]⟩ .f32 0x7F800000#32)))
      (constantI ⟨0, ![]⟩ 1 1#1) rt hu ix0 = 1#1) : RealArr x := by
  intro i
  have e := Host.reduce_andi_all _ _ rt hu ix0 h i
  rw [cmpf_apply, broadcastInDim_apply _ bc _ i ix0 (fun a => a.elim0)] at e
  exact isReal_of_abs_lt e

/-- THE PRECONDITION DECODED: if the printed predicate is true of the twelve arguments, each of the ten float arrays is
    real-valued (the two integer arrays are not constrained). -/
theorem reals_of_pre [Cert.Pre_finite_inputs.Facts]
    (a0 : FVec Ideal Cert.Pre_finite_inputs.S50000x256 .f32) (a1 a2 : FVec Ideal Cert.Pre_finite_inputs.S256x256 .f32)
    (a3 : FVec Ideal Cert.Pre_finite_inputs.S256 .f32) (a4 a5 : FVec Ideal Cert.Pre_finite_inputs.S256x256 .f32)
    (a6 : FVec Ideal Cert.Pre_finite_inputs.S256 .f32) (a7 a8 : FVec Ideal Cert.Pre_finite_inputs.S128x256 .f32)
    (a9 : FVec Ideal Cert.Pre_finite_inputs.S128 .f32) (a10 a11 : IVec Cert.Pre_finite_inputs.S800000 32)
    (h : Cert.Pre_finite_inputs.fn (F := Ideal) a0 a1 a2 a3 a4 a5 a6 a7 a8 a9 a10 a11 = fun _ => 1#1) :
    RealArr a0 ∧ RealArr a1 ∧ RealArr a2 ∧ RealArr a3 ∧ RealArr a4 ∧ RealArr a5 ∧ RealArr a6 ∧ RealArr a7
      ∧ RealArr a8 ∧ RealArr a9 := by
  have h0 := congrFun h ix0
  dsimp only [Cert.Pre_finite_inputs.fn, Cert.Pre_finite_inputs.fn_part1, Cert.Pre_finite_inputs.fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_finite _ _ _ a0 e0, real_of_all_finite _ _ _ a1 e1, real_of_all_finite _ _ _ a2 e2,
    real_of_all_finite _ _ _ a3 e3, real_of_all_finite _ _ _ a4 e4, real_of_all_finite _ _ _ a5 e5,
    real_of_all_finite _ _ _ a6 e6, real_of_all_finite _ _ _ a7 e7, real_of_all_finite _ _ _ a8 e8,
    real_of_all_finite _ _ _ a9 e9⟩

end Cert.Finite

end
-- ==== Proof.lean ====
/-
  Three layers of mean-aggregation graph convolution on 50000 nodes and 800000 edges, computed two ways, agree on finite
  inputs as extended reals.

  Both programs gather the source node's feature row for every edge, add the rows into their destination nodes, and scale
  each node's sum by its in-degree clamped below by one; a layer is then `h·Wsᵀ + mean(h)·Wnᵀ + b`, with `max(·, 0)` after
  the first two layers. They differ in two places.
  * One divides the sum by the clamped degree; the other multiplies by its reciprocal, computed once. A clamped degree is
    at least one, so it is not zero, and off zero a quotient IS the product with the inverse: the two agree for any sum,
    finite or not.
  * In the last layer one program averages the 256-column rows and multiplies the mean by the neighbour weights; the other
    multiplies every node's row by the neighbour weights first (a pipelined matrix product into 128 columns) and averages
    the projected rows. That exchanges a sum over edges with a sum over columns and moves the reciprocal degree across
    both, which is an identity of real numbers and is false at the infinities. So the last layer's input must be
    real-valued: it is, because the inputs are (the precondition), the reciprocal of any extended real is a real number,
    and sums, products and maxima of real numbers are real numbers.
  The integer arguments are unconstrained: a gather clamps an out-of-range row number into range and a scatter-add drops an
  out-of-range one, identically in both programs, so the graph they describe is the same whatever they hold.

  The kernel's result is read off its run region by region (each pipelined region's output array is the dense function of
  its input arrays, block by block over ten row blocks) and host stretch by host stretch; the reference's result is its
  run's composed term. Both are then one network of the specification, and the two networks are equal.
-/
import proofs.«153461_j996432413260_2_alg».proof.Defs
import proofs.«153461_j996432413260_2_alg».proof.Proof.Gen.Kernel
import proofs.«153461_j996432413260_2_alg».proof.Proof.Gen.Kernel.Skeleton
import proofs.«153461_j996432413260_2_alg».proof.Proof.Gen.Kernel.Launch
import proofs.«153461_j996432413260_2_alg».proof.Proof.Gen.Kernel.Points
import proofs.«153461_j996432413260_2_alg».proof.Proof.Gen.Kernel.Frame
import proofs.«153461_j996432413260_2_alg».proof.Proof.Gen.KernelIdeal
import proofs.«153461_j996432413260_2_alg».proof.Proof.Gen.KernelIdeal.Skeleton
import proofs.«153461_j996432413260_2_alg».proof.Proof.Gen.KernelIdeal.Launch
import proofs.«153461_j996432413260_2_alg».proof.Proof.Gen.KernelIdeal.Points
import proofs.«153461_j996432413260_2_alg».proof.Proof.Gen.KernelIdeal.Frame
import proofs.«153461_j996432413260_2_alg».proof.Proof.Gen.ReferenceIdeal
import proofs.«153461_j996432413260_2_alg».proof.Proof.Gen.ReferenceIdeal.Run
import proofs.«153461_j996432413260_2_alg».proof.Proof.Gen.Pre_finite_inputs
import proofs.«153461_j996432413260_2_alg».proof.Proof.KerRun
import proofs.«153461_j996432413260_2_alg».proof.Proof.KerValue
import proofs.«153461_j996432413260_2_alg».proof.Proof.RefValue
import proofs.«153461_j996432413260_2_alg».proof.Proof.Bridge
import proofs.«153461_j996432413260_2_alg».proof.Proof.Finite
import proofs.«153461_j996432413260_2_alg».proof.Proof.MeanLaw
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the two idealized programs end with the same result array: the kernel's is
    the network that projects before averaging, the reference's the network that averages before projecting, on one graph
    and real-valued data. -/
theorem algebraic : Cert.algebraic_KernelIdeal_ReferenceIdeal := by
  intro m ρ m' ρ' hpre hagree
  refine ⟨fun c => Cert.KernelIdeal.Gen.W8 m ρ c (Proc.devRef .tc Cert.KernelIdeal.main_v57),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  obtain ⟨r0, r1, r2, r3, r4, r5, r6, -, r8, -⟩ := Cert.Finite.reals_of_pre _ _ _ _ _ _ _ _ _ _ _ _ (hpre c)
  refine (Cert.ReferenceIdeal.RefValue.ref_value m' c).trans ?_
  refine Eq.trans ?_ (Cert.KernelIdeal.Walk.ker_value m ρ c).symm
  rw [e0, e1, e2, e3, e4, e5, e6, e7, e8, e9, e10, e11,
    Cert.Bridge.gidx_eq, Cert.Bridge.sidx_eq, Cert.Bridge.Dv_eq]
  exact Cert.Spec.refNet_eq_kerNet _ _ _ (Cert.KernelIdeal.Walk.degOf_ne_zero _) r0 r1 r2 r3 r4 r5 r6 r8

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
